-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S800000 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S1x128 : Shape := ⟨2, ![1, 128]⟩

abbrev nBuf : Space → Nat
  | .hbm => 88
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x1, .f32⟩
  | .hbm, ⟨49, _⟩ => ⟨S850000x1, .f32⟩
  | .hbm, ⟨50, _⟩ => ⟨S50000x128, .bf16⟩
  | .hbm, ⟨51, _⟩ => ⟨S_, .i32⟩
  | .hbm, ⟨52, _⟩ => ⟨S850000, .i32⟩
  | .hbm, ⟨53, _⟩ => ⟨S850000, .i1⟩
  | .hbm, ⟨54, _⟩ => ⟨S_, .i32⟩
  | .hbm, ⟨55, _⟩ => ⟨S850000, .i32⟩
  | .hbm, ⟨56, _⟩ => ⟨S850000, .i32⟩
  | .hbm, ⟨57, _⟩ => ⟨S850000, .i32⟩
  | .hbm, ⟨58, _⟩ => ⟨S850000x1, .i32⟩
  | .hbm, ⟨59, _⟩ => ⟨S850000x128, .bf16⟩
  | .hbm, ⟨60, _⟩ => ⟨S850000x128, .f32⟩
  | .hbm, ⟨61, _⟩ => ⟨S850000x128, .f32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S1x128, .f32⟩
  | .hbm, ⟨68, _⟩ => ⟨S50000x128, .bf16⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .bf16⟩
  | .hbm, ⟨78, _⟩ => ⟨S850000x128, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S1x128, .f32⟩
  | .hbm, ⟨86, _⟩ => ⟨S1x128, .f32⟩
  | .hbm, ⟨87, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S128x128, .f32⟩
  | .local _ .vmem, ⟨11, _⟩ => ⟨S5000x1, .f32⟩
  | .local _ .vmem, ⟨12, _⟩ => ⟨S5000x1, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .bf16 = 32 ∨ (Rect.block (s := S50000x128) S5000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S2x800000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x128, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S850000x1, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x128, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S1x128, .f32⟩
  | .hbm, ⟨106, _⟩ => ⟨S50000x128, .f32⟩
  | .hbm, ⟨107, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call3_cst : Ref sig .tc := ⟨.hbm, 101, rfl⟩
abbrev main_call3_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with every buffer's final contents named.

  The program is three kernel launches among stretches of host operations. Its run over those segments ends with every
  buffer that outlives the launches holding the last boundary's contents: the launch memory pushed through each stretch
  of host operations and, at each launch, through that launch's write-backs. In particular the result buffer and the
  nine argument buffers are read there.
-/
import proofs.«104920_j78795470013089_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every buffer that outlives the launches ends at the contents of the
    boundary after the third launch. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run read at the result buffer and the nine arguments: the result ends at the last boundary's contents of
    its buffer, the arguments as launched. -/
theorem run_result : θ_run defs (onTc (τ := τ) (main (F := F))) ⟨m, fun _ => 0, ρ⟩ (fun r => ∀ c : Dev nD,
      r.2.mem ((c.tc : Thread nD τ).loc main_v60) = W10 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v60 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)
    (run_all m ρ)

end Cert.KernelIdeal.Whole

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibDotRows.lean ====
/-
  The host's matrix product, read at a row and a column.

  For dimension numbers that contract the left operand's axis 1 against the right operand's axis 0, with no batch axis,
  the host product of an [M, K] and a [K, N] array reads at (p, c) as the sum over a < K of l(p, a) · r(a, c): on the
  extended reals the host product is the plain sum over the contraction shape's indices, and that shape has one axis.
  The companion of the same reading of a kernel's product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The host product at (p, c), from the four facts that say which operand index the dimension numbers read at an
    output index and a contraction index. -/
theorem dotGeneral_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    Host.dotGeneral d prec l r (ix2 p c) = ∑ a : Fin K, l (ix2 p a) * r (ix2 a c) := by
  show FloatOps.dotGeneral d prec .single l r (ix2 p c) = _
  rw [Ideal.dotGeneral_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibDotRows

end
-- ==== Proof.LibTileRows.lean ====
/-
  A tile of rows of a matrix product, and a bias row added to every row.

  `rowsProd X W` is the product of an [M, K] array and a [K, N] array entry by entry: at (r, c) the sum over a < K of
  X(r, a) · W(a, c). On the extended reals the host's product with plain dimension numbers (the left operand's axis 1
  contracted against the right operand's axis 0, no batch axis) is this array. A kernel that walks the rows in tiles
  multiplies, at each tile, the tile's rows [Mb, K] by the whole of W into a zero accumulator: when the tile's rows are
  the rows o, o + 1, … of X, what it leaves at (p, c) is `rowsProd X W` at (o + p, c) — a row of the product depends on
  that row of X only.

  `rowsBias A B` adds the one row B [1, N] to every row of A [M, N]. A tile of rows of A with the same B added to each
  row is the tile of `rowsBias A B`.
-/
import proofs.«104920_j78795470013089_2_alg».proof.Proof.LibMatmulRows
import proofs.«104920_j78795470013089_2_alg».proof.Proof.LibDotRows
import Idealize.ShloMosaic.Lib.Pipeline.Value
import Idealize.ShloMosaic.Lib.ValueLayout

noncomputable section

namespace Cert.LibTileRows

open Idealize.ShloMosaic Idealize.ShloMosaic.ValueIdx

/-- The product of an [M, K] and a [K, N] array, entry by entry. -/
def rowsProd {M K N : Nat} (X : (⟨2, ![M, K]⟩ : Shape).Idx → EReal) (W : (⟨2, ![K, N]⟩ : Shape).Idx → EReal) :
    (⟨2, ![M, N]⟩ : Shape).Idx → EReal :=
  fun i => ∑ a : Fin K, X (ix2 (i 0) a) * W (ix2 a (i 1))

/-- The host's plain product is `rowsProd`. -/
theorem rowsProd_eq_dot {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (X : FVec Ideal ⟨2, ![M, K]⟩ .f32) (W : FVec Ideal ⟨2, ![K, N]⟩ .f32) :
    rowsProd X W = Host.dotGeneral (F := Ideal) d none X W := by
  funext i
  obtain ⟨p, q, rfl⟩ : ∃ (p : Fin M) (q : Fin N), i = ix2 p q := ⟨i 0, i 1, eq_ix2 i⟩
  exact (Cert.LibDotRows.dotGeneral_ix2 d hr hs hl0 hl1 hr0 hr1 none X W p q).symm

/-- A tile of rows times the whole right operand, into the zero accumulator: the tile of the whole product whose rows
    start at row `o`. -/
theorem tile_rowsProd {Mb M K N : Nat} {φ₁ φ₂ : FTy} (d : DotDims ⟨2, ![Mb, K]⟩ ⟨2, ![K, N]⟩ ⟨2, ![Mb, N]⟩)
    (hr : d.contr.rank = 1) (hs : d.contr.size ⟨0, by omega⟩ = K)
    (hl0 : ∀ (i : (⟨2, ![Mb, N]⟩ : Shape).Idx) (q : d.contr.Idx), (d.lhsIdx i q 0).val = (i 0).val)
    (hl1 : ∀ (i : (⟨2, ![Mb, N]⟩ : Shape).Idx) (q : d.contr.Idx), (d.lhsIdx i q 1).val = (q ⟨0, by omega⟩).val)
    (hr0 : ∀ (i : (⟨2, ![Mb, N]⟩ : Shape).Idx) (q : d.contr.Idx), (d.rhsIdx i q 0).val = (q ⟨0, by omega⟩).val)
    (hr1 : ∀ (i : (⟨2, ![Mb, N]⟩ : Shape).Idx) (q : d.contr.Idx), (d.rhsIdx i q 1).val = (i 1).val)
    (prec : Option ContractPrecision) (l : FVec Ideal ⟨2, ![Mb, K]⟩ φ₁) (r : FVec Ideal ⟨2, ![K, N]⟩ φ₂)
    (X : (⟨2, ![M, K]⟩ : Shape).Idx → EReal) (W : (⟨2, ![K, N]⟩ : Shape).Idx → EReal) (o : Nat)
    (hX : ∀ (x : (⟨2, ![Mb, K]⟩ : Shape).Idx) (k : (⟨2, ![M, K]⟩ : Shape).Idx),
      (k 0).val = o + (x 0).val → (k 1).val = (x 1).val → l x = X k)
    (hW : ∀ x, r x = W x)
    (y : (⟨2, ![Mb, N]⟩ : Shape).Idx) (i : (⟨2, ![M, N]⟩ : Shape).Idx)
    (hi0 : (i 0).val = o + (y 0).val) (hi1 : (i 1).val = (y 1).val) :
    matmul d prec l r (constant ⟨2, ![Mb, N]⟩ .f32 0x00000000#32) y = rowsProd X W i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [Cert.LibMatmulRows.matmul_zero_ix2 d hr hs hl0 hl1 hr0 hr1 prec l r p v]
  unfold rowsProd
  refine Finset.sum_congr rfl fun a _ => ?_
  rw [hX (ix2 p a) (ix2 u a) hi0 rfl, hW]
  rfl

/-- One row added to every row. -/
def rowsBias {M N : Nat} (A : (⟨2, ![M, N]⟩ : Shape).Idx → EReal) (B : (⟨2, ![1, N]⟩ : Shape).Idx → EReal) :
    (⟨2, ![M, N]⟩ : Shape).Idx → EReal :=
  fun i => A i + B (ix2 (0 : Fin 1) (i 1))

/-- One row added to every row, then the maximum with the float word zero (a rectifier). -/
def rowsBiasRelu {M N : Nat} (A : (⟨2, ![M, N]⟩ : Shape).Idx → EReal) (B : (⟨2, ![1, N]⟩ : Shape).Idx → EReal) :
    (⟨2, ![M, N]⟩ : Shape).Idx → EReal :=
  fun i => max (rowsBias A B i) (Ideal.ofBits .f32 0x00000000#32)

/-- A tile of rows with the one row `b` broadcast over it and added: the tile of `rowsBias A B` whose rows start at
    row `o`, when the tile holds rows `o`, `o + 1`, … of `A` and `b` is `B`. -/
theorem tile_rowsBias {Mb M N : Nat} (a : (⟨2, ![Mb, N]⟩ : Shape).Idx → EReal) (b : (⟨2, ![1, N]⟩ : Shape).Idx → EReal)
    (hb : (⟨2, ![1, N]⟩ : Shape).Broadcasts ⟨2, ![Mb, N]⟩)
    (A : (⟨2, ![M, N]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    a y + broadcastTo ⟨2, ![Mb, N]⟩ b hb y = rowsBias A B i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  have hv : v = q := Fin.ext hi1
  subst hv
  rw [broadcastTo_1b_ab_apply b hb p v, hA (ix2 p v) (ix2 u v) hi0 rfl, hB]
  rfl

/-- One row added to every row is the sum with the row broadcast along axis 0 (a `broadcast_in_dim` of [1, N] to
    [M, N] that keeps both axes). -/
theorem rowsBias_eq_add {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1]) :
    rowsBias A B = addf A (broadcastInDim ⟨2, ![M, N]⟩ ![0, 1] hb B) := by
  funext i
  obtain ⟨p, q, rfl⟩ : ∃ (p : Fin M) (q : Fin N), i = ix2 p q := ⟨i 0, i 1, eq_ix2 i⟩
  rw [addf_apply, broadcastInDim_apply ![0, 1] hb B (ix2 p q) (ix2 (0 : Fin 1) q) ?_]
  · rfl
  · intro a
    match a with
    | ⟨0, _⟩ => rfl
    | ⟨1, _⟩ =>
      show q.val = if N = 1 then 0 else q.val
      split
      · have := q.isLt; omega
      · rfl

/-- The same followed by the maximum with zero, the zero spelt as a scalar constant broadcast to the whole shape. -/
theorem rowsBiasRelu_eq_max {M N : Nat} (A : FVec Ideal ⟨2, ![M, N]⟩ .f32) (B : FVec Ideal ⟨2, ![1, N]⟩ .f32)
    (hb : (⟨2, ![1, N]⟩ : Shape).BroadcastsInDim ⟨2, ![M, N]⟩ ![0, 1])
    (h0 : (⟨0, ![]⟩ : Shape).BroadcastsInDim ⟨2, ![M, N]⟩ ![]) :
    rowsBiasRelu A B = maximumf (addf A (broadcastInDim ⟨2, ![M, N]⟩ ![0, 1] hb B))
      (broadcastInDim ⟨2, ![M, N]⟩ ![] h0 (constant (F := Ideal) ⟨0, ![]⟩ .f32 0x00000000#32)) := by
  funext i
  rw [maximumf_apply, ← rowsBias_eq_add A B hb,
    broadcastInDim_apply ![] h0 (constant (F := Ideal) ⟨0, ![]⟩ .f32 0x00000000#32) i ix0 (fun a => a.elim0)]
  rfl

end Cert.LibTileRows

end
-- ==== Proof.LibScaledRows.lean ====
/-
  Rows scaled by a column, and three dense layers as functions of whole arrays.

  `rowsScale A D` multiplies row `r` of an [M, N] array `A` by the entry `r` of an [M, 1] column `D`. A tile of rows of `A`
  times the matching tile of `D` broadcast along the rows is the tile of `rowsScale A D`; likewise a tile of rows with a bias
  row added and the maximum with the float word zero taken is the tile of `rowsBiasRelu A B`. On top of the entrywise
  product `rowsProd` these give three layers whose row `r` depends on row `r` of the row-wise arguments only:
    `projScaled X W D   = (X · W)(r, c) · D(r)`,
    `denseScaled A B W D = (max(A + B, 0) · W)(r, c) · D(r)`,
    `denseBias A B W C   = (max(A + B, 0) · W)(r, c) + C(c)`.
-/
import proofs.«104920_j78795470013089_2_alg».proof.Proof.LibTileRows

noncomputable section

namespace Cert.LibScaledRows

open Idealize.ShloMosaic Idealize.ShloMosaic.ValueIdx Cert.LibTileRows

/-! ## A column broadcast along rows, and rows scaled by a column -/

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of `A` multiplied by the entry `r` of the column `D`. -/
def rowsScale {M N : Nat} (A : (⟨2, ![M, N]⟩ : Shape).Idx → EReal) (D : (⟨2, ![M, 1]⟩ : Shape).Idx → EReal) :
    (⟨2, ![M, N]⟩ : Shape).Idx → EReal :=
  fun i => A i * D (ix2 (i 0) (0 : Fin 1))

/-- A tile of rows times the matching tile of the column broadcast along the rows: the tile of `rowsScale A D` whose rows
    start at row `o`. -/
theorem tile_rowsScale {Mb M N : Nat} (a : (⟨2, ![Mb, N]⟩ : Shape).Idx → EReal) (d : (⟨2, ![Mb, 1]⟩ : Shape).Idx → EReal)
    (hb : (⟨2, ![Mb, 1]⟩ : Shape).Broadcasts ⟨2, ![Mb, N]⟩)
    (A : (⟨2, ![M, N]⟩ : Shape).Idx → EReal) (D : (⟨2, ![M, 1]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hD : ∀ (x : (⟨2, ![Mb, 1]⟩ : Shape).Idx) (k : (⟨2, ![M, 1]⟩ : Shape).Idx), (k 0).val = o + (x 0).val → d x = D k)
    (y : (⟨2, ![Mb, N]⟩ : Shape).Idx) (i : (⟨2, ![M, N]⟩ : Shape).Idx)
    (hi0 : (i 0).val = o + (y 0).val) (hi1 : (i 1).val = (y 1).val) :
    a y * broadcastTo ⟨2, ![Mb, N]⟩ d hb y = rowsScale A D i := by
  obtain ⟨p, q, rfl⟩ : ∃ (p : Fin Mb) (q : Fin N), y = ix2 p q := ⟨y 0, y 1, eq_ix2 y⟩
  obtain ⟨u, v, rfl⟩ : ∃ (u : Fin M) (v : Fin N), i = ix2 u v := ⟨i 0, i 1, eq_ix2 i⟩
  rw [broadcastTo_a1_ab_apply d hb p q, hA (ix2 p q) (ix2 u v) hi0 hi1, hD (ix2 p (0 : Fin 1)) (ix2 u (0 : Fin 1)) hi0]
  rfl

/-- A tile of rows with the bias row added and the maximum with zero taken: the tile of `rowsBiasRelu A B`. -/
theorem tile_rowsBiasRelu {Mb M N : Nat} (a : (⟨2, ![Mb, N]⟩ : Shape).Idx → EReal) (b : (⟨2, ![1, N]⟩ : Shape).Idx → EReal)
    (hb : (⟨2, ![1, N]⟩ : Shape).Broadcasts ⟨2, ![Mb, N]⟩)
    (A : (⟨2, ![M, N]⟩ : Shape).Idx → EReal) (B : (⟨2, ![1, N]⟩ : Shape).Idx → EReal) (o : Nat)
    (hA : ∀ (x : (⟨2, ![Mb, N]⟩ : Shape).Idx) (k : (⟨2, ![M, N]⟩ : Shape).Idx),
      (k 0).val = o + (x 0).val → (k 1).val = (x 1).val → a x = A k)
    (hB : ∀ x, b x = B x)
    (y : (⟨2, ![Mb, N]⟩ : Shape).Idx) (i : (⟨2, ![M, N]⟩ : Shape).Idx)
    (hi0 : (i 0).val = o + (y 0).val) (hi1 : (i 1).val = (y 1).val) :
    max (a y + broadcastTo ⟨2, ![Mb, N]⟩ b hb y) (Ideal.ofBits .f32 0x00000000#32) = rowsBiasRelu A B i := by
  unfold rowsBiasRelu
  rw [tile_rowsBias a b hb A B o hA hB y i hi0 hi1]

/-! ## The three layers -/

/-- The first layer: every row projected by `W`, row `r` scaled by `D(r)`. -/
def projScaled {M K N : Nat} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  rowsScale (rowsProd X W) D

/-- The second layer: bias row, maximum with zero, projection by `W`, row `r` scaled by `D(r)`. -/
def denseScaled {M K N : Nat} (A : (⟨2, ![M, K]⟩ : Shape).Idx → EReal) (B : (⟨2, ![1, K]⟩ : Shape).Idx → EReal)
    (W : (⟨2, ![K, N]⟩ : Shape).Idx → EReal) (D : (⟨2, ![M, 1]⟩ : Shape).Idx → EReal) : (⟨2, ![M, N]⟩ : Shape).Idx → EReal :=
  rowsScale (rowsProd (rowsBiasRelu A B) W) D

/-- The third layer: bias row, maximum with zero, projection by `W`, a second bias row. -/
def denseBias {M K N : Nat} (A : (⟨2, ![M, K]⟩ : Shape).Idx → EReal) (B : (⟨2, ![1, K]⟩ : Shape).Idx → EReal)
    (W : (⟨2, ![K, N]⟩ : Shape).Idx → EReal) (C : (⟨2, ![1, N]⟩ : Shape).Idx → EReal) : (⟨2, ![M, N]⟩ : Shape).Idx → EReal :=
  rowsBias (rowsProd (rowsBiasRelu A B) W) C

end Cert.LibScaledRows

end
-- ==== Proof.LibPlainDot.lean ====
/-
  Plain matrix-product dimension numbers, read at their indices.

  Dimension numbers of a product of an [M, K] array and a [K, N] array are PLAIN when they contract the left
  operand's axis 1 against the right operand's axis 0, keep the left operand's axis 0 and the right operand's axis 1 as
  the result's two axes in that order, and have no batch axis. For such numbers the contraction shape has the one axis
  of extent K, and at a result index (p, c) and a contraction position a the left operand is read at (p, a) and the
  right operand at (a, c). These are the six facts a product needs to be read as the sum over a of l(p, a) · r(a, c).
-/
import Idealize.ShloMosaic.PureOps.Ideal.Laws
import Idealize.ShloMosaic.Lib.ValueIdx

noncomputable section

namespace Cert.LibPlainDot

open Idealize.ShloMosaic

variable {M K N : Nat} (d : DotDims ⟨2, ![M, K]⟩ ⟨2, ![K, N]⟩ ⟨2, ![M, N]⟩)

/-- The six lists of plain dimension numbers. -/
structure Plain : Prop where
  lc : d.lhsContracting = [1]
  rc : d.rhsContracting = [0]
  ln : d.lhsNonContracting = [0]
  rn : d.rhsNonContracting = [1]
  lb : d.lhsBatch = []
  rb : d.rhsBatch = []

variable {d}

/-- One contracted axis. -/
theorem Plain.rank (h : Plain d) : d.contr.rank = 1 := by rw [d.rank_contr, h.lc]; rfl

private theorem val_congr {n : Nat} {s : Fin n → Nat} (i : (a : Fin n) → Fin (s a)) (p q : Nat) (hp : p < n) (hq : q < n)
    (e : p = q) : (i ⟨p, hp⟩).val = (i ⟨q, hq⟩).val := by subst e; rfl

/-- The left operand's row is the result's row. -/
theorem Plain.lhs0 (h : Plain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr i _ _ _ _ (by simp [h.lb, h.ln])

/-- The left operand's column is the contraction position. -/
theorem Plain.lhs1 (h : Plain d) (i : (⟨2, ![M, N]⟩ : Shape).Idx) (q : d.contr.Idx) :
    (d.lhsIdx i q 1).val = (q ⟨0, by rw [h.rank]; exact Nat.one_pos⟩).val :=
  d.lhsIdx_val_of_single h.lc i q

/-- The right operand's row is the contraction position. -/
theorem Plain.rhs0 (h : Plain d) (i : (⟨2, ![M, N]⟩ : Shape).Idx) (q : d.contr.Idx) :
    (d.rhsIdx i q 0).val = (q ⟨0, by rw [h.rank]; exact Nat.one_pos⟩).val :=
  d.rhsIdx_val_of_single h.rc i q

/-- The right operand's column is the result's column. -/
theorem Plain.rhs1 (h : Plain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr i _ _ _ _ (by simp [h.lb, h.ln, h.rn])

/-- The contracted axis has the operands' shared extent. -/
theorem Plain.size (h : Plain d) : d.contr.size ⟨0, by rw [h.rank]; exact Nat.one_pos⟩ = K := by
  have hp : 0 < d.lhsContracting.length := by rw [h.lc]; exact Nat.one_pos
  have e1 : d.lhsContracting[0] = (1 : Fin (⟨2, ![M, K]⟩ : Shape).rank) := by simp [h.lc]
  exact (d.size_contr 0 hp).trans (by rw [e1]; rfl)

end Cert.LibPlainDot

end
-- ==== Proof.Layers.lean ====
/-
  The three kernel bodies on a tile of rows are tiles of the three dense layers.

  Each layer acts row by row on an array of 50000 rows:
    * the first projects every row by a weight matrix and scales row `r` by the entry `r` of a column `D`:
      `(X · W)(r, c) · D(r)`;
    * the second adds a bias row to every row, takes the maximum with zero, projects, and scales by `D` likewise:
      `(max(A + B, 0) · W)(r, c) · D(r)`;
    * the third adds a bias row, takes the maximum with zero, projects, and adds a second bias row:
      `(max(A + B, 0) · W)(r, c) + C(c)`.
  Row `r` of a layer's result depends on row `r` of its row-wise arguments only, so a kernel body that computes the layer
  on a tile of 5000 rows (the rows `o`, `o + 1`, … of the arrays) against the whole weight matrix and bias rows leaves that
  tile of the layer's result. Changes of float format are the identity on the extended reals.
-/
import proofs.«104920_j78795470013089_2_alg».proof.Proof.LibTileRows
import proofs.«104920_j78795470013089_2_alg».proof.Proof.LibScaledRows
import proofs.«104920_j78795470013089_2_alg».proof.Proof.LibPlainDot
import proofs.«104920_j78795470013089_2_alg».proof.Proof.Gen.KernelIdeal.Skeleton

noncomputable section

namespace Cert.Layers

open Idealize.ShloMosaic Idealize.ShloMosaic.ValueIdx Cert.LibTileRows Cert.LibScaledRows

export Cert.LibScaledRows (broadcastTo_a1_ab_apply rowsScale tile_rowsScale tile_rowsBiasRelu projScaled denseScaled denseBias)

/-! ## The kernel bodies on a tile of 5000 rows -/

open Cert.KernelIdeal Cert.KernelIdeal.Gen

/-- The bodies' matrix product has plain dimension numbers. -/
theorem plain_dot : Cert.LibPlainDot.Plain dot_S5000x128_S128x128_S5000x128_1_0_0_1_n_n := ⟨rfl, rfl, rfl, rfl, rfl, rfl⟩

/-- The first body on the rows `o`, `o + 1`, … of `X` and of the column `D`, against the whole of `W`: that tile of the
    first layer. -/
theorem pay0_tile (x0 : Vec Ideal S5000x128 .f32) (x1 : Vec Ideal S128x128 .f32) (x2 : Vec Ideal S5000x1 .f32)
    (X : S50000x128.Idx → EReal) (W : S128x128.Idx → EReal) (D : S50000x1.Idx → EReal) (o : Nat)
    (hX : ∀ (x : S5000x128.Idx) (k : S50000x128.Idx), (k 0).val = o + (x 0).val → (k 1).val = (x 1).val → x0 x = X k)
    (hW : ∀ x, x1 x = W x)
    (hD : ∀ (x : S5000x1.Idx) (k : S50000x1.Idx), (k 0).val = o + (x 0).val → x2 x = D k)
    (y : S5000x128.Idx) (i : S50000x128.Idx) (hi0 : (i 0).val = o + (y 0).val) (hi1 : (i 1).val = (y 1).val) :
    k0_pay1 x0 x1 x2 y = projScaled X W D i := by
  have e : k0_pay1 x0 x1 x2 y
      = matmul (F := Ideal) dot_S5000x128_S128x128_S5000x128_1_0_0_1_n_n none (truncf (F := Ideal) (φ := .f32) .bf16 x0 bitsLt_bf16_f32) (truncf (F := Ideal) (φ := .f32) .bf16 x1 bitsLt_bf16_f32)
          (constant (F := Ideal) S5000x128 .f32 0x00000000#32) y
        * broadcastTo S5000x128 (shapeCast S5000x1 x2 shapeCasts_S5000x1_S5000x1) broadcasts_S5000x1_S5000x128 y := rfl
  rw [e, shapeCast_self]
  exact tile_rowsScale _ x2 broadcasts_S5000x1_S5000x128 (rowsProd X W) D o
    (fun x k h0 h1 => tile_rowsProd dot_S5000x128_S128x128_S5000x128_1_0_0_1_n_n plain_dot.rank plain_dot.size
      plain_dot.lhs0 plain_dot.lhs1 plain_dot.rhs0 plain_dot.rhs1 none _ _ X W o hX hW x k h0 h1)
    hD y i hi0 hi1

/-- The bias row added and the maximum with zero taken, as the second and third bodies spell it, on a tile of rows. -/
theorem relu_tile (v0 : Vec Ideal S5000x128 .f32) (v2 : Vec Ideal S1x128 .f32)
    (A : S50000x128.Idx → EReal) (B : S1x128.Idx → EReal) (o : Nat)
    (hA : ∀ (x : S5000x128.Idx) (k : S50000x128.Idx), (k 0).val = o + (x 0).val → (k 1).val = (x 1).val → v0 x = A k)
    (hB : ∀ x, v2 x = B x)
    (x : S5000x128.Idx) (k : S50000x128.Idx) (h0 : (k 0).val = o + (x 0).val) (h1 : (k 1).val = (x 1).val) :
    (truncf (F := Ideal) (φ := .f32) .bf16 (maximumf (F := Ideal) (addf (F := Ideal) (φ := .f32) (shapeCast S5000x128 v0 shapeCasts_S5000x128_S5000x128)
        (broadcastTo S5000x128 (shapeCast S1x128 v2 shapeCasts_S1x128_S1x128) broadcasts_S1x128_S5000x128))
      (broadcast S5000x128 (Scalar.ofBits (F := Ideal) .f32 0x00000000#32))) bitsLt_bf16_f32 : FVec Ideal S5000x128 .bf16) x
      = rowsBiasRelu A B k := by
  rw [shapeCast_self, shapeCast_self]
  exact tile_rowsBiasRelu v0 v2 broadcasts_S1x128_S5000x128 A B o hA hB x k h0 h1

/-- The second body on the rows `o`, `o + 1`, … of `A` and of the column `D`, against the whole bias row and weight: that
    tile of the second layer. -/
theorem pay1_tile (v0 : Vec Ideal S5000x128 .f32) (v2 : Vec Ideal S1x128 .f32) (v9 : Vec Ideal S128x128 .f32) (v12 : Vec Ideal S5000x1 .f32)
    (A : S50000x128.Idx → EReal) (B : S1x128.Idx → EReal) (W : S128x128.Idx → EReal) (D : S50000x1.Idx → EReal) (o : Nat)
    (hA : ∀ (x : S5000x128.Idx) (k : S50000x128.Idx), (k 0).val = o + (x 0).val → (k 1).val = (x 1).val → v0 x = A k)
    (hB : ∀ x, v2 x = B x) (hW : ∀ x, v9 x = W x)
    (hD : ∀ (x : S5000x1.Idx) (k : S50000x1.Idx), (k 0).val = o + (x 0).val → v12 x = D k)
    (y : S5000x128.Idx) (i : S50000x128.Idx) (hi0 : (i 0).val = o + (y 0).val) (hi1 : (i 1).val = (y 1).val) :
    k1_pay1 v0 v2 v9 v12 y = denseScaled A B W D i := by
  have e : k1_pay1 v0 v2 v9 v12 y
      = matmul (F := Ideal) dot_S5000x128_S128x128_S5000x128_1_0_0_1_n_n none
          (truncf (F := Ideal) (φ := .f32) .bf16 (maximumf (F := Ideal) (addf (F := Ideal) (φ := .f32) (shapeCast S5000x128 v0 shapeCasts_S5000x128_S5000x128)
              (broadcastTo S5000x128 (shapeCast S1x128 v2 shapeCasts_S1x128_S1x128) broadcasts_S1x128_S5000x128))
            (broadcast S5000x128 (Scalar.ofBits (F := Ideal) .f32 0x00000000#32))) bitsLt_bf16_f32)
          (truncf (F := Ideal) (φ := .f32) .bf16 v9 bitsLt_bf16_f32) (constant (F := Ideal) S5000x128 .f32 0x00000000#32) y
        * broadcastTo S5000x128 (shapeCast S5000x1 v12 shapeCasts_S5000x1_S5000x1) broadcasts_S5000x1_S5000x128 y := rfl
  rw [e, shapeCast_self v12]
  exact tile_rowsScale _ v12 broadcasts_S5000x1_S5000x128 (rowsProd (rowsBiasRelu A B) W) D o
    (fun x k h0 h1 => tile_rowsProd dot_S5000x128_S128x128_S5000x128_1_0_0_1_n_n plain_dot.rank plain_dot.size
      plain_dot.lhs0 plain_dot.lhs1 plain_dot.rhs0 plain_dot.rhs1 none _ _ (rowsBiasRelu A B) W o
      (relu_tile v0 v2 A B o hA hB) hW x k h0 h1)
    hD y i hi0 hi1

/-- The third body on the rows `o`, `o + 1`, … of `A`, against the whole bias rows and weight: that tile of the third
    layer. -/
theorem pay2_tile (v0 : Vec Ideal S5000x128 .f32) (v2 : Vec Ideal S1x128 .f32) (v9 : Vec Ideal S128x128 .f32) (v12 : Vec Ideal S1x128 .f32)
    (A : S50000x128.Idx → EReal) (B : S1x128.Idx → EReal) (W : S128x128.Idx → EReal) (C : S1x128.Idx → EReal) (o : Nat)
    (hA : ∀ (x : S5000x128.Idx) (k : S50000x128.Idx), (k 0).val = o + (x 0).val → (k 1).val = (x 1).val → v0 x = A k)
    (hB : ∀ x, v2 x = B x) (hW : ∀ x, v9 x = W x) (hC : ∀ x, v12 x = C x)
    (y : S5000x128.Idx) (i : S50000x128.Idx) (hi0 : (i 0).val = o + (y 0).val) (hi1 : (i 1).val = (y 1).val) :
    k2_pay1 v0 v2 v9 v12 y = denseBias A B W C i := by
  have e : k2_pay1 v0 v2 v9 v12 y
      = matmul (F := Ideal) dot_S5000x128_S128x128_S5000x128_1_0_0_1_n_n none
          (truncf (F := Ideal) (φ := .f32) .bf16 (maximumf (F := Ideal) (addf (F := Ideal) (φ := .f32) (shapeCast S5000x128 v0 shapeCasts_S5000x128_S5000x128)
              (broadcastTo S5000x128 (shapeCast S1x128 v2 shapeCasts_S1x128_S1x128) broadcasts_S1x128_S5000x128))
            (broadcast S5000x128 (Scalar.ofBits (F := Ideal) .f32 0x00000000#32))) bitsLt_bf16_f32)
          (truncf (F := Ideal) (φ := .f32) .bf16 v9 bitsLt_bf16_f32) (constant (F := Ideal) S5000x128 .f32 0x00000000#32) y
        + broadcastTo S5000x128 (shapeCast S1x128 v12 shapeCasts_S1x128_S1x128) broadcasts_S1x128_S5000x128 y := rfl
  rw [e, shapeCast_self v12]
  exact tile_rowsBias _ v12 broadcasts_S1x128_S5000x128 (rowsProd (rowsBiasRelu A B) W) C o
    (fun x k h0 h1 => tile_rowsProd dot_S5000x128_S128x128_S5000x128_1_0_0_1_n_n plain_dot.rank plain_dot.size
      plain_dot.lhs0 plain_dot.lhs1 plain_dot.rhs0 plain_dot.rhs1 none _ _ (rowsBiasRelu A B) W o
      (relu_tile v0 v2 A B o hA hB) hW x k h0 h1)
    hC y i hi0 hi1

end Cert.Layers

end
-- ==== Proof.Blocks.lean ====
/-
  What each of the three launches leaves in its output array.

  A launch walks the 50000 rows in ten tiles of 5000 rows. At tile `t` the windows over the row-wise arrays (the input
  array and, where the layer scales its rows, the column of scales) hold rows `5000 t … 5000 t + 4999`; the windows over
  the weight matrix and the bias rows hold the whole of them; the body writes the tile of the output. By the row-tile
  lemmas each written tile is that tile of the layer's whole-array function, and the ten tiles cover the output array:
  after the launch the output array holds the layer's function of the arrays as the launch found them.
-/
import proofs.«104920_j78795470013089_2_alg».proof.Proof.Gen.KernelIdeal.Frame
import proofs.«104920_j78795470013089_2_alg».proof.Proof.Layers

set_option maxRecDepth 16384

noncomputable section

namespace Cert.KernelIdeal.Whole

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first launch -/

/-- The printed block-index maps over the grid: the row-wise windows are at block row `t`, the weight at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input rows' block at tile `t` holds rows `5000 t …` of the input array. -/
theorem iblk0_0_apply (c : Dev nD) (t : Fin cfg0.N) (x : S5000x128.Idx) (k : S50000x128.Idx)
    (hk0 : (k 0).val = t.val * 5000 + (x 0).val) (hk1 : (k 1).val = (x 1).val) :
    (iblk0 V c 0 t : Vec Ideal S5000x128 .f32) x = (V c main_arg0 : S50000x128.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weight's block at every tile is the whole weight. -/
theorem iblk0_1_apply (c : Dev nD) (t : Fin cfg0.N) (x : S128x128.Idx) :
    (iblk0 V c 1 t : Vec Ideal S128x128 .f32) x = (V c main_arg2 : S128x128.Idx → EReal) x := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- The scale column's block at tile `t` holds entries `5000 t …` of the column. -/
theorem iblk0_2_apply (c : Dev nD) (t : Fin cfg0.N) (x : S5000x1.Idx) (k : S50000x1.Idx)
    (hk0 : (k 0).val = t.val * 5000 + (x 0).val) :
    (iblk0 V c 2 t : Vec Ideal S5000x1 .f32) x = (V c main_v27 : S50000x1.Idx → EReal) k := by
  obtain ⟨-, -, -, -, e0, e1, -⟩ := idx0 t
  unfold iblk0
  rw [View.read_apply]
  show V c main_v27 _ = V c main_v27 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1]; have h1 : (x 1).val < 1 := (x 1).isLt; have h2 : (k 1).val < 1 := (k 1).isLt; omega

/-- What tile `t` writes back is tile `t` of the first layer of the arrays as the launch found them. -/
theorem flushed0_eq (c : Dev nD) (t : Fin cfg0.N) :
    (dat0 V c).flushed 3 t = ((cfg0.win 3).blk t).view.read (Elt Ideal)
      (projScaled (V c main_arg0 : S50000x128.Idx → EReal) (V c main_arg2 : S128x128.Idx → EReal) (V c main_v27 : S50000x1.Idx → EReal)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx0 t
  funext j
  rw [View.read_apply]
  refine pay0_tile (iblk0 V c 0 t) (iblk0 V c 1 t) (iblk0 V c 2 t) _ _ _ (t.val * 5000)
    (fun x k h0 h1 => iblk0_0_apply V c t x k h0 h1) (fun x => iblk0_1_apply V c t x)
    (fun x k h0 => iblk0_2_apply V c t x k h0) j _ ?_ ?_
  · show win0_3.index t 0 * 5000 + 1 * (j 0).val = _; rw [e0]; omega
  · show win0_3.index t 1 * 128 + 1 * (j 1).val = _; rw [e1]; omega

/-- An index of the output array is in tile `t`'s block iff each coordinate is in the block's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v29).slice (win0_3.rect t)).set ↔ _
  rw [View.set_slice_whole, Rect.mem_set_unit]
  exact Iff.rfl

/-- The ten tiles cover the output array: row `r` is in tile `r / 5000`. -/
theorem cover0 (i : S50000x128.Idx) : ∃ t : Fin cfg0.N, (cfg0.win 3).flush t = true ∧ i ∈ ((cfg0.win 3).blk t).view.set := by
  have hN : cfg0.N = 10 := N_0
  have hi0 : (i 0).val < 50000 := (i 0).isLt
  have hi1 : (i 1).val < 128 := (i 1).isLt
  refine ⟨⟨(i 0).val / 5000, by rw [hN]; omega⟩, flush0_3 _, ?_⟩
  rw [mem_blk0]
  obtain ⟨-, -, -, -, -, -, e0, e1⟩ := idx0 ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e0]; show (i 0).val / 5000 * 5000 ≤ (i 0).val ∧ (i 0).val < (i 0).val / 5000 * 5000 + 5000; omega
  | ⟨1, _⟩ => show win0_3.index _ (1 : Fin 2) * 128 ≤ (i 1).val ∧ (i 1).val < win0_3.index _ (1 : Fin 2) * 128 + 128; rw [e1]; omega

/-- After the first launch its output array holds the first layer of the arrays as the launch found them. -/
theorem arr0 (c : Dev nD) : (dat0 V c).arrAt 3 cfg0.N
    = projScaled (V c main_arg0 : S50000x128.Idx → EReal) (V c main_arg2 : S128x128.Idx → EReal) (V c main_v27 : S50000x1.Idx → EReal) :=
  (dat0 V c).arrAt_eq_of_cover 3 _ (fun t _ => flushed0_eq V c t) (cover0)

/-! ## The second launch -/

/-- The printed block-index maps over the grid: the row-wise windows are at block row `t`, the bias rows and the weight at
    block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The input rows' block at tile `t` holds rows `5000 t …` of the input array. -/
theorem iblk1_0_apply (c : Dev nD) (t : Fin cfg1.N) (x : S5000x128.Idx) (k : S50000x128.Idx)
    (hk0 : (k 0).val = t.val * 5000 + (x 0).val) (hk1 : (k 1).val = (x 1).val) :
    (iblk1 V c 0 t : Vec Ideal S5000x128 .f32) x = (V c main_v42 : S50000x128.Idx → EReal) k := by
  obtain ⟨e0, e1, -⟩ := idx1 t
  unfold iblk1
  rw [View.read_apply]
  show V c main_v42 _ = V c main_v42 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The bias row's block at every tile is the whole row. -/
theorem iblk1_1_apply (c : Dev nD) (t : Fin cfg1.N) (x : S1x128.Idx) :
    (iblk1 V c 1 t : Vec Ideal S1x128 .f32) x = (V c main_v43 : S1x128.Idx → EReal) x := by
  obtain ⟨-, -, e0, e1, -⟩ := idx1 t
  unfold iblk1
  rw [View.read_apply]
  show V c main_v43 _ = V c main_v43 _
  congr 1
  funext a
  apply Fin.ext
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- The weight's block at every tile is the whole weight. -/
theorem iblk1_2_apply (c : Dev nD) (t : Fin cfg1.N) (x : S128x128.Idx) :
    (iblk1 V c 2 t : Vec Ideal S128x128 .f32) x = (V c main_arg4 : S128x128.Idx → EReal) x := by
  obtain ⟨-, -, -, -, e0, e1, -⟩ := idx1 t
  unfold iblk1
  rw [View.read_apply]
  show V c main_arg4 _ = V c main_arg4 _
  congr 1
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The scale column's block at tile `t` holds entries `5000 t …` of the column. -/
theorem iblk1_3_apply (c : Dev nD) (t : Fin cfg1.N) (x : S5000x1.Idx) (k : S50000x1.Idx)
    (hk0 : (k 0).val = t.val * 5000 + (x 0).val) :
    (iblk1 V c 3 t : Vec Ideal S5000x1 .f32) x = (V c main_v27 : S50000x1.Idx → EReal) k := by
  obtain ⟨-, -, -, -, -, -, e0, e1, -⟩ := idx1 t
  unfold iblk1
  rw [View.read_apply]
  show V c main_v27 _ = V c main_v27 _
  congr 1
  funext a
  apply Fin.ext
  match a with
  | ⟨0, _⟩ => show win1_3.index t 0 * 5000 + 1 * (x 0).val = (k 0).val; rw [e0, hk0]; omega
  | ⟨1, _⟩ => show win1_3.index t 1 * 1 + 1 * (x 1).val = (k 1).val; rw [e1]; have h1 : (x 1).val < 1 := (x 1).isLt; have h2 : (k 1).val < 1 := (k 1).isLt; omega

/-- What tile `t` writes back is tile `t` of the second layer of the arrays as the launch found them. -/
theorem flushed1_eq (c : Dev nD) (t : Fin cfg1.N) :
    (dat1 V c).flushed 4 t = ((cfg1.win 4).blk t).view.read (Elt Ideal)
      (denseScaled (V c main_v42 : S50000x128.Idx → EReal) (V c main_v43 : S1x128.Idx → EReal) (V c main_arg4 : S128x128.Idx → EReal) (V c main_v27 : S50000x1.Idx → EReal)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz, View.ld_unit_zero (S := S1x128) hz]
  obtain ⟨-, -, -, -, -, -, -, -, e0, e1⟩ := idx1 t
  funext j
  rw [View.read_apply]
  refine pay1_tile (iblk1 V c 0 t) (iblk1 V c 1 t) (iblk1 V c 2 t) (iblk1 V c 3 t) _ _ _ _ (t.val * 5000)
    (fun x k h0 h1 => iblk1_0_apply V c t x k h0 h1) (fun x => iblk1_1_apply V c t x) (fun x => iblk1_2_apply V c t x)
    (fun x k h0 => iblk1_3_apply V c t x k h0) j _ ?_ ?_
  · show win1_4.index t 0 * 5000 + 1 * (j 0).val = _; rw [e0]; omega
  · show win1_4.index t 1 * 128 + 1 * (j 1).val = _; rw [e1]; omega

/-- An index of the output array is in tile `t`'s block iff each coordinate is in the block's range. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v44).slice (win1_4.rect t)).set ↔ _
  rw [View.set_slice_whole, Rect.mem_set_unit]
  exact Iff.rfl

/-- The ten tiles cover the output array: row `r` is in tile `r / 5000`. -/
theorem cover1 (i : S50000x128.Idx) : ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  refine ⟨⟨(i 0).val / 5000, by rw [hN]; omega⟩, flush1_4 _, ?_⟩
  rw [mem_blk1]
  obtain ⟨-, -, -, -, -, -, -, -, e0, e1⟩ := idx1 ⟨(i 0).val / 5000, by rw [hN]; omega⟩
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ (i 0).val ∧ (i 0).val < (i 0).val / 5000 * 5000 + 5000; omega
  | ⟨1, _⟩ => show win1_4.index _ (1 : Fin 2) * 128 ≤ (i 1).val ∧ (i 1).val < win1_4.index _ (1 : Fin 2) * 128 + 128; rw [e1]; omega

/-- After the second launch its output array holds the second layer of the arrays as the launch found them. -/
theorem arr1 (c : Dev nD) : (dat1 V c).arrAt 4 cfg1.N
    = denseScaled (V c main_v42 : S50000x128.Idx → EReal) (V c main_v43 : S1x128.Idx → EReal) (V c main_arg4 : S128x128.Idx → EReal) (V c main_v27 : S50000x1.Idx → EReal) :=
  (dat1 V c).arrAt_eq_of_cover 4 _ (fun t _ => flushed1_eq V c t) (cover1)

/-! ## The third launch -/

/-- The printed block-index maps over the grid: the row-wise windows are at block row `t`, the bias rows and the weight at
    block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The input rows' block at tile `t` holds rows `5000 t …` of the input array. -/
theorem iblk2_0_apply (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = (V c main_v57 : S50000x128.Idx → EReal) k := by
  obtain ⟨e0, e1, -⟩ := idx2 t
  unfold iblk2
  rw [View.read_apply]
  show V c main_v57 _ = V c main_v57 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The bias row's block at every tile is the whole row. -/
theorem iblk2_1_apply (c : Dev nD) (t : Fin cfg2.N) (x : S1x128.Idx) :
    (iblk2 V c 1 t : Vec Ideal S1x128 .f32) x = (V c main_v58 : S1x128.Idx → EReal) x := by
  obtain ⟨-, -, e0, e1, -⟩ := idx2 t
  unfold iblk2
  rw [View.read_apply]
  show V c main_v58 _ = V c main_v58 _
  congr 1
  funext a
  apply Fin.ext
  match a with
  | ⟨0, _⟩ => show win2_1.index t 0 * 1 + 1 * (x 0).val = (x 0).val; rw [e0]; omega
  | ⟨1, _⟩ => show win2_1.index t 1 * 128 + 1 * (x 1).val = (x 1).val; rw [e1]; omega

/-- The weight's block at every tile is the whole weight. -/
theorem iblk2_2_apply (c : Dev nD) (t : Fin cfg2.N) (x : S128x128.Idx) :
    (iblk2 V c 2 t : Vec Ideal S128x128 .f32) x = (V c main_arg6 : S128x128.Idx → EReal) x := by
  obtain ⟨-, -, -, -, e0, e1, -⟩ := idx2 t
  unfold iblk2
  rw [View.read_apply]
  show V c main_arg6 _ = V c main_arg6 _
  congr 1
  funext a
  apply Fin.ext
  match a with
  | ⟨0, _⟩ => show win2_2.index t 0 * 128 + 1 * (x 0).val = (x 0).val; rw [e0]; omega
  | ⟨1, _⟩ => show win2_2.index t 1 * 128 + 1 * (x 1).val = (x 1).val; rw [e1]; omega

/-- The second bias row's block at every tile is the whole row. -/
theorem iblk2_3_apply (c : Dev nD) (t : Fin cfg2.N) (x : S1x128.Idx) :
    (iblk2 V c 3 t : Vec Ideal S1x128 .f32) x = (V c main_v59 : S1x128.Idx → EReal) x := by
  obtain ⟨-, -, -, -, -, -, e0, e1, -⟩ := idx2 t
  unfold iblk2
  rw [View.read_apply]
  show V c main_v59 _ = V c main_v59 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- What tile `t` writes back is tile `t` of the third layer of the arrays as the launch found them. -/
theorem flushed2_eq (c : Dev nD) (t : Fin cfg2.N) :
    (dat2 V c).flushed 4 t = ((cfg2.win 4).blk t).view.read (Elt Ideal)
      (denseBias (V c main_v57 : S50000x128.Idx → EReal) (V c main_v58 : S1x128.Idx → EReal) (V c main_arg6 : S128x128.Idx → EReal) (V c main_v59 : S1x128.Idx → EReal)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S5000x1) hz, View.ld_unit_zero (S := S1x128) hz]
  obtain ⟨-, -, -, -, -, -, -, -, e0, e1⟩ := idx2 t
  funext j
  rw [View.read_apply]
  refine pay2_tile (iblk2 V c 0 t) (iblk2 V c 1 t) (iblk2 V c 2 t) (iblk2 V c 3 t) _ _ _ _ (t.val * 5000)
    (fun x k h0 h1 => iblk2_0_apply V c t x k h0 h1) (fun x => iblk2_1_apply V c t x) (fun x => iblk2_2_apply V c t x)
    (fun x => iblk2_3_apply V c t x) j _ ?_ ?_
  · show win2_4.index t 0 * 5000 + 1 * (j 0).val = _; rw [e0]; omega
  · show win2_4.index t 1 * 128 + 1 * (j 1).val = _; rw [e1]; omega

/-- An index of the output array is in tile `t`'s block iff each coordinate is in the block's range. -/
theorem mem_blk2 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v60).slice (win2_4.rect t)).set ↔ _
  rw [View.set_slice_whole, Rect.mem_set_unit]
  exact Iff.rfl

/-- The ten tiles cover the output array: row `r` is in tile `r / 5000`. -/
theorem cover2 (i : S50000x128.Idx) : ∃ t : Fin cfg2.N, (cfg2.win 4).flush t = true ∧ i ∈ ((cfg2.win 4).blk t).view.set := by
  have hN : cfg2.N = 10 := N_2
  have hi0 : (i 0).val < 50000 := (i 0).isLt
  have hi1 : (i 1).val < 128 := (i 1).isLt
  refine ⟨⟨(i 0).val / 5000, by rw [hN]; omega⟩, flush2_4 _, ?_⟩
  rw [mem_blk2]
  obtain ⟨-, -, -, -, -, -, -, -, e0, e1⟩ := idx2 ⟨(i 0).val / 5000, by rw [hN]; omega⟩
  intro a
  match a with
  | ⟨0, _⟩ => show win2_4.index _ (0 : Fin 2) * 5000 ≤ (i 0).val ∧ (i 0).val < win2_4.index _ (0 : Fin 2) * 5000 + 5000; rw [e0]; show (i 0).val / 5000 * 5000 ≤ (i 0).val ∧ (i 0).val < (i 0).val / 5000 * 5000 + 5000; omega
  | ⟨1, _⟩ => show win2_4.index _ (1 : Fin 2) * 128 ≤ (i 1).val ∧ (i 1).val < win2_4.index _ (1 : Fin 2) * 128 + 128; rw [e1]; omega

/-- After the third launch its output array holds the third layer of the arrays as the launch found them. -/
theorem arr2 (c : Dev nD) : (dat2 V c).arrAt 4 cfg2.N
    = denseBias (V c main_v57 : S50000x128.Idx → EReal) (V c main_v58 : S1x128.Idx → EReal) (V c main_arg6 : S128x128.Idx → EReal) (V c main_v59 : S1x128.Idx → EReal) :=
  (dat2 V c).arrAt_eq_of_cover 4 _ (fun t _ => flushed2_eq V c t) (cover2)

end Cert.KernelIdeal.Whole

end
-- ==== Proof.Terms.lean ====
/-
  The kernel's result as one term of the argument arrays.

  Both programs first compute, from the edge list and the edge weights, the same node and edge quantities: the edge
  endpoints with a self loop appended for every node (`src`, `dst`), the edge weights with weight one for the self loops
  (`w`), the weighted in-degree of every node, and `dinv`, its inverse square root where the degree is positive and zero
  elsewhere. They are named here by the reference's own stages. The kernel then uses
    * `dcol`: `dinv` as a column, one entry per node;
    * `ecol`: per edge `e` the factor `w(e) · dinv(dst e)`, as a column;
    * `aggregate H`: one round of message passing on an array `H` of node rows — row `src e` of `H` times the edge's
      factor, summed into row `dst e`;
  and its result is the three dense layers with a round of message passing between consecutive ones.
-/
import proofs.«104920_j78795470013089_2_alg».proof.Proof.Gen.ReferenceIdeal.Read
import proofs.«104920_j78795470013089_2_alg».proof.Proof.Layers

noncomputable section

namespace Cert.Terms

open Idealize.ShloMosaic Idealize.ShloMosaic.ValueIdx Cert.Layers
open Cert.ReferenceIdeal Cert.ReferenceIdeal.Gen Cert.ReferenceIdeal.Read

/-- The inverse square roots of the degrees as a column of 50000 entries. -/
def dcol (x1 : (⟨S800000, .f32⟩ : BufTy).Contents (Elt Ideal)) (x8 : (⟨S2x800000, .i32⟩ : BufTy).Contents (Elt Ideal)) :
    (⟨Cert.KernelIdeal.S50000x1, .f32⟩ : BufTy).Contents (Elt Ideal) :=
  broadcastInDim Cert.KernelIdeal.S50000x1 ![0] Cert.KernelIdeal.Gen.bcast_S50000_S50000x1_0
    (val_main_v18 (F := Ideal) x1 x8 : (⟨S50000, .f32⟩ : BufTy).Contents (Elt Ideal))

/-- Per edge, its weight times the inverse square root of its target's degree, as a column. -/
def ecol (x1 : (⟨S800000, .f32⟩ : BufTy).Contents (Elt Ideal)) (x8 : (⟨S2x800000, .i32⟩ : BufTy).Contents (Elt Ideal)) :
    (⟨S850000x1, .f32⟩ : BufTy).Contents (Elt Ideal) :=
  broadcastInDim S850000x1 ![0] bcast_S850000_S850000x1_0
    (mulf (F := Ideal) (φ := .f32) (val_main_v8 (F := Ideal) x1) (val_main_v33 (F := Ideal) x1 x8) : (⟨S850000, .f32⟩ : BufTy).Contents (Elt Ideal))

/-- One round of message passing on node rows `H` held in the narrow float format: the row of each edge's source times
    the edge's factor, summed into the row of the edge's target. -/
def aggregate (H : (⟨S50000x128, .bf16⟩ : BufTy).Contents (Elt Ideal))
    (x1 : (⟨S800000, .f32⟩ : BufTy).Contents (Elt Ideal)) (x8 : (⟨S2x800000, .i32⟩ : BufTy).Contents (Elt Ideal)) :
    (⟨S50000x128, .f32⟩ : BufTy).Contents (Elt Ideal) :=
  Host.scatterAdd (F := Ideal) scatter_S50000x128_S850000x1_S850000x128_1_0_0_1 (val_main_v46 (F := Ideal)) (val_main_v47 (F := Ideal) x8)
    (mulf (F := Ideal) (φ := .f32)
      (broadcastInDim S850000x128 ![0, 1] bcast_S850000x1_S850000x128_0_1 (ecol x1 x8) : (⟨S850000x128, .f32⟩ : BufTy).Contents (Elt Ideal))
      (extf (F := Ideal) (φ := .bf16) .f32
        (Host.gather gather_S50000x128_S850000x1_S850000x128_1_0_n_n_0_1_1128 H (val_main_v42 (F := Ideal) x8) : (⟨S850000x128, .bf16⟩ : BufTy).Contents (Elt Ideal))
        Cert.KernelIdeal.Gen.bitsLt_bf16_f32))

/-- A vector of 128 entries as one row. -/
def row (b : (⟨S128, .f32⟩ : BufTy).Contents (Elt Ideal)) : (⟨S1x128, .f32⟩ : BufTy).Contents (Elt Ideal) :=
  shapeCast S1x128 b Cert.KernelIdeal.Gen.shapeCasts_S128_S1x128

/-- The kernel's result: the three dense layers with a round of message passing after the first and after the second. -/
def kernelTerm (x0 : (⟨S50000x128, .f32⟩ : BufTy).Contents (Elt Ideal)) (x1 : (⟨S800000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S2x800000, .i32⟩ : BufTy).Contents (Elt Ideal)) : (⟨S50000x128, .f32⟩ : BufTy).Contents (Elt Ideal) :=
  denseBias (aggregate (denseScaled (aggregate (projScaled x0 x2 (dcol x1 x8)) x1 x8) (row x3) x4 (dcol x1 x8)) x1 x8)
    (row x5) x6 (row x7)

end Cert.Terms

end
-- ==== Proof.HostWalk.lean ====
/-
  The fold from the launch memory to the result buffer.

  Between launches the host computes with plain array operations. Reading each stretch of host operations as a function
  of the contents it starts from, and each launch by what it leaves in its output array, the result buffer after the third
  launch is the kernel's composed term of the nine argument arrays: the node and edge quantities (endpoints, weights,
  degrees, inverse square roots) are the reference's own stages, and each round of message passing gathers the rows the
  previous launch left.
-/
import proofs.«104920_j78795470013089_2_alg».proof.Proof.Gen.KernelIdeal.Frame
import proofs.«104920_j78795470013089_2_alg».proof.Proof.Blocks
import proofs.«104920_j78795470013089_2_alg».proof.Proof.Terms

set_option maxRecDepth 16384

noncomputable section

namespace Cert.KernelIdeal.Whole

open Cert.KernelIdeal Cert.KernelIdeal.Gen Cert.Layers Cert.Terms
open Idealize.ShloMosaic Idealize.ShloMosaic.TcCoe Idealize.ShloMosaic.ValueIdx Idealize.SL.Sem Idealize.ShloMosaic.StableHlo

/-! ## The host's spellings -/

/-- `where(c, a, k)` with a scalar `k`: the scalar broadcast to the node vector, then the choice entry by entry. -/
def whereK (c : IVec S50000 1) (a : FVec Ideal S50000 .f32) (k : FVec Ideal S_ .f32) : FVec Ideal S50000 .f32 :=
  select c a (broadcastInDim S50000 ![] bcast_S_S50000 (id k))

/-- A negative index counted from the end: `v + 50000` where `v < 0`, else `v`. -/
def wrapK (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- A vector over the edges as a column. -/
def colK {α : Type} (v : S850000.Idx → α) : S850000x1.Idx → α := broadcastInDim S850000x1 ![0] bcast_S850000_S850000x1_0 v

/-- Per edge, its weight times the gathered inverse square root of its target's degree, as a column. -/
def ecolK (w : FVec Ideal S850000 .f32) (d : FVec Ideal S50000 .f32) (dst : IVec S850000 32) : FVec Ideal S850000x1 .f32 :=
  colK (mulf (F := Ideal) (φ := .f32) w (Host.gather gather_S50000_S850000x1_S850000_n_0_n_n_0_1_1 d (colK (wrapK dst))))

/-- One round of message passing as the host spells it. -/
def roundK (Hh : FVec Ideal S50000x128 .bf16) (ec : FVec Ideal S850000x1 .f32) (src dst : IVec S850000 32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32)) (colK dst)
    (mulf (F := Ideal) (φ := .f32) (broadcastInDim S850000x128 ![0, 1] bcast_S850000x1_S850000x128_0_1 ec)
      (extf (F := Ideal) (φ := .bf16) .f32
        (Host.gather gather_S50000x128_S850000x1_S850000x128_1_0_n_n_0_1_1128 Hh (colK (wrapK src))) bitsLt_bf16_f32))

/-! ## Each stretch of host operations, from any contents `U` -/

section Stretches

variable (U : Valuation τ sig (Elt Ideal))

set_option maxHeartbeats 4000000 in
theorem s0_v5 : StableHlo.after (hostOps0 (F := Ideal)) U (Proc.devRef .tc main_v5) = Cert.ReferenceIdeal.Read.val_main_v5 (F := Ideal) (U (Proc.devRef .tc main_arg8)) := by
  dsimp only [hostOps0]
  after_results_simp
  rfl
set_option maxHeartbeats 4000000 in
theorem s0_v6 : StableHlo.after (hostOps0 (F := Ideal)) U (Proc.devRef .tc main_v6) = Cert.ReferenceIdeal.Read.val_main_v6 (F := Ideal) (U (Proc.devRef .tc main_arg8)) := by
  dsimp only [hostOps0]
  after_results_simp
  rfl
set_option maxHeartbeats 4000000 in
theorem s0_v8 : StableHlo.after (hostOps0 (F := Ideal)) U (Proc.devRef .tc main_v8) = Cert.ReferenceIdeal.Read.val_main_v8 (F := Ideal) (U (Proc.devRef .tc main_arg1)) := by
  dsimp only [hostOps0]
  after_results_simp
  rfl
set_option maxHeartbeats 4000000 in
theorem s0_v11 : StableHlo.after (hostOps0 (F := Ideal)) U (Proc.devRef .tc main_v11) = Cert.ReferenceIdeal.Read.val_main_v11 (F := Ideal) (U (Proc.devRef .tc main_arg1)) (U (Proc.devRef .tc main_arg8)) := by
  dsimp only [hostOps0]
  after_results_simp
  rfl
set_option maxHeartbeats 4000000 in
theorem s0_v13 : StableHlo.after (hostOps0 (F := Ideal)) U (Proc.devRef .tc main_v13) = Cert.ReferenceIdeal.Read.val_main_v13 (F := Ideal) (U (Proc.devRef .tc main_arg1)) (U (Proc.devRef .tc main_arg8)) := by
  dsimp only [hostOps0]
  after_results_simp
  rfl
set_option maxHeartbeats 4000000 in
theorem s0_v15 : StableHlo.after (hostOps0 (F := Ideal)) U (Proc.devRef .tc main_v15) = Cert.ReferenceIdeal.Read.val_main_v15 (F := Ideal) (U (Proc.devRef .tc main_arg1)) (U (Proc.devRef .tc main_arg8)) := by
  dsimp only [hostOps0]
  after_results_simp
  rfl
set_option maxHeartbeats 4000000 in
theorem s0_cst_3 : StableHlo.after (hostOps0 (F := Ideal)) U (Proc.devRef .tc main_cst_3) = Cert.ReferenceIdeal.Read.val_main_cst_3 (F := Ideal) := by
  dsimp only [hostOps0]
  after_results_simp
  rfl
set_option maxHeartbeats 4000000 in
theorem s1_v16 : StableHlo.after (hostOps0_1 (F := Ideal)) U (Proc.devRef .tc main_v16)
    = whereK (U (Proc.devRef .tc main_v15)) (U (Proc.devRef .tc main_v11)) (U (Proc.devRef .tc main_cst_3)) := by
  dsimp only [hostOps0_1]
  after_results_simp
  rfl
set_option maxHeartbeats 4000000 in
theorem s2_v17 : StableHlo.after (hostOps0_2 (F := Ideal)) U (Proc.devRef .tc main_v17)
    = (Host.rsqrt (F := Ideal) (φ := .f32) (U (Proc.devRef .tc main_v16) : FVec Ideal S50000 .f32) : FVec Ideal S50000 .f32) := by
  dsimp only [hostOps0_2]
  after_results_simp
set_option maxHeartbeats 4000000 in
theorem s2_cst_4 : StableHlo.after (hostOps0_2 (F := Ideal)) U (Proc.devRef .tc main_cst_4) = Cert.ReferenceIdeal.Read.val_main_cst_4 (F := Ideal) := by
  dsimp only [hostOps0_2]
  after_results_simp
  rfl
set_option maxHeartbeats 4000000 in
theorem s3_v18 : StableHlo.after (hostOps0_3 (F := Ideal)) U (Proc.devRef .tc main_v18)
    = whereK (U (Proc.devRef .tc main_v13)) (U (Proc.devRef .tc main_v17)) (U (Proc.devRef .tc main_cst_4)) := by
  dsimp only [hostOps0_3]
  after_results_simp
  rfl
set_option maxHeartbeats 4000000 in
theorem s4_v27 : StableHlo.after (hostOps0_4 (F := Ideal)) U (Proc.devRef .tc main_v27)
    = (broadcastInDim S50000x1 ![0] bcast_S50000_S50000x1_0 (U (Proc.devRef .tc main_v18) : FVec Ideal S50000 .f32) : FVec Ideal S50000x1 .f32) := by
  dsimp only [hostOps0_4]
  after_results_simp
set_option maxHeartbeats 4000000 in
theorem s4_v28 : StableHlo.after (hostOps0_4 (F := Ideal)) U (Proc.devRef .tc main_v28)
    = ecolK (U (Proc.devRef .tc main_v8)) (U (Proc.devRef .tc main_v18)) (U (Proc.devRef .tc main_v6)) := by
  dsimp only [hostOps0_4]
  after_results_simp
  rfl
set_option maxHeartbeats 4000000 in
theorem s5_v42 : StableHlo.after (hostOps1 (F := Ideal)) U (Proc.devRef .tc main_v42)
    = roundK (U (Proc.devRef .tc main_v29)) (U (Proc.devRef .tc main_v28)) (U (Proc.devRef .tc main_v5)) (U (Proc.devRef .tc main_v6)) := by
  dsimp only [hostOps1]
  after_results_simp
  rfl
set_option maxHeartbeats 4000000 in
theorem s5_v43 : StableHlo.after (hostOps1 (F := Ideal)) U (Proc.devRef .tc main_v43) = row (U (Proc.devRef .tc main_arg3)) := by
  dsimp only [hostOps1]
  after_results_simp
  rfl
set_option maxHeartbeats 4000000 in
theorem s6_v57 : StableHlo.after (hostOps2 (F := Ideal)) U (Proc.devRef .tc main_v57)
    = roundK (U (Proc.devRef .tc main_v44)) (U (Proc.devRef .tc main_v28)) (U (Proc.devRef .tc main_v5)) (U (Proc.devRef .tc main_v6)) := by
  dsimp only [hostOps2]
  after_results_simp
  rfl
set_option maxHeartbeats 4000000 in
theorem s6_v58 : StableHlo.after (hostOps2 (F := Ideal)) U (Proc.devRef .tc main_v58) = row (U (Proc.devRef .tc main_arg5)) := by
  dsimp only [hostOps2]
  after_results_simp
  rfl
set_option maxHeartbeats 4000000 in
theorem s6_v59 : StableHlo.after (hostOps2 (F := Ideal)) U (Proc.devRef .tc main_v59) = row (U (Proc.devRef .tc main_arg7)) := by
  dsimp only [hostOps2]
  after_results_simp
  rfl

/-! Buffers a stretch does not write keep their contents. -/

set_option maxHeartbeats 4000000 in
theorem p13 : StableHlo.after (hostOps0_2 (F := Ideal)) (StableHlo.after (hostOps0_1 (F := Ideal)) (U)) (Proc.devRef .tc main_v13) = U (Proc.devRef .tc main_v13) := by
  dsimp only [hostOps0_1, hostOps0_2]
  after_results_simp
set_option maxHeartbeats 4000000 in
theorem p8 : StableHlo.after (hostOps0_3 (F := Ideal)) (StableHlo.after (hostOps0_2 (F := Ideal)) (StableHlo.after (hostOps0_1 (F := Ideal)) (U))) (Proc.devRef .tc main_v8) = U (Proc.devRef .tc main_v8) := by
  dsimp only [hostOps0_1, hostOps0_2, hostOps0_3]
  after_results_simp
set_option maxHeartbeats 4000000 in
theorem p6a : StableHlo.after (hostOps0_3 (F := Ideal)) (StableHlo.after (hostOps0_2 (F := Ideal)) (StableHlo.after (hostOps0_1 (F := Ideal)) (U))) (Proc.devRef .tc main_v6) = U (Proc.devRef .tc main_v6) := by
  dsimp only [hostOps0_1, hostOps0_2, hostOps0_3]
  after_results_simp
set_option maxHeartbeats 4000000 in
theorem p6b : StableHlo.after (hostOps0_4 (F := Ideal)) (U) (Proc.devRef .tc main_v6) = U (Proc.devRef .tc main_v6) := by
  dsimp only [hostOps0_4]
  after_results_simp
set_option maxHeartbeats 4000000 in
theorem p5 : StableHlo.after (hostOps0_4 (F := Ideal)) (StableHlo.after (hostOps0_3 (F := Ideal)) (StableHlo.after (hostOps0_2 (F := Ideal)) (StableHlo.after (hostOps0_1 (F := Ideal)) (U)))) (Proc.devRef .tc main_v5) = U (Proc.devRef .tc main_v5) := by
  dsimp only [hostOps0_1, hostOps0_2, hostOps0_3, hostOps0_4]
  after_results_simp
set_option maxHeartbeats 4000000 in
theorem pa0 : StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (U))))) (Proc.devRef .tc main_arg0) = U (Proc.devRef .tc main_arg0) := by
  dsimp only [hostOps0, hostOps0_1, hostOps0_2, hostOps0_3, hostOps0_4]
  after_results_simp
set_option maxHeartbeats 4000000 in
theorem pa2 : StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (U))))) (Proc.devRef .tc main_arg2) = U (Proc.devRef .tc main_arg2) := by
  dsimp only [hostOps0, hostOps0_1, hostOps0_2, hostOps0_3, hostOps0_4]
  after_results_simp
set_option maxHeartbeats 4000000 in
theorem pa3 : StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (U))))) (Proc.devRef .tc main_arg3) = U (Proc.devRef .tc main_arg3) := by
  dsimp only [hostOps0, hostOps0_1, hostOps0_2, hostOps0_3, hostOps0_4]
  after_results_simp
set_option maxHeartbeats 4000000 in
theorem pa4 : StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (U))))) (Proc.devRef .tc main_arg4) = U (Proc.devRef .tc main_arg4) := by
  dsimp only [hostOps0, hostOps0_1, hostOps0_2, hostOps0_3, hostOps0_4]
  after_results_simp
set_option maxHeartbeats 4000000 in
theorem pa5 : StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (U))))) (Proc.devRef .tc main_arg5) = U (Proc.devRef .tc main_arg5) := by
  dsimp only [hostOps0, hostOps0_1, hostOps0_2, hostOps0_3, hostOps0_4]
  after_results_simp
set_option maxHeartbeats 4000000 in
theorem pa6 : StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (U))))) (Proc.devRef .tc main_arg6) = U (Proc.devRef .tc main_arg6) := by
  dsimp only [hostOps0, hostOps0_1, hostOps0_2, hostOps0_3, hostOps0_4]
  after_results_simp
set_option maxHeartbeats 4000000 in
theorem pa7 : StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) (U))))) (Proc.devRef .tc main_arg7) = U (Proc.devRef .tc main_arg7) := by
  dsimp only [hostOps0, hostOps0_1, hostOps0_2, hostOps0_3, hostOps0_4]
  after_results_simp
set_option maxHeartbeats 4000000 in
theorem q_v5 : StableHlo.after (hostOps1 (F := Ideal)) (U) (Proc.devRef .tc main_v5) = U (Proc.devRef .tc main_v5) := by
  dsimp only [hostOps1]
  after_results_simp
set_option maxHeartbeats 4000000 in
theorem q_v6 : StableHlo.after (hostOps1 (F := Ideal)) (U) (Proc.devRef .tc main_v6) = U (Proc.devRef .tc main_v6) := by
  dsimp only [hostOps1]
  after_results_simp
set_option maxHeartbeats 4000000 in
theorem q_v27 : StableHlo.after (hostOps1 (F := Ideal)) (U) (Proc.devRef .tc main_v27) = U (Proc.devRef .tc main_v27) := by
  dsimp only [hostOps1]
  after_results_simp
set_option maxHeartbeats 4000000 in
theorem q_v28 : StableHlo.after (hostOps1 (F := Ideal)) (U) (Proc.devRef .tc main_v28) = U (Proc.devRef .tc main_v28) := by
  dsimp only [hostOps1]
  after_results_simp
set_option maxHeartbeats 4000000 in
theorem q_arg4 : StableHlo.after (hostOps1 (F := Ideal)) (U) (Proc.devRef .tc main_arg4) = U (Proc.devRef .tc main_arg4) := by
  dsimp only [hostOps1]
  after_results_simp
set_option maxHeartbeats 4000000 in
theorem q_arg5 : StableHlo.after (hostOps1 (F := Ideal)) (U) (Proc.devRef .tc main_arg5) = U (Proc.devRef .tc main_arg5) := by
  dsimp only [hostOps1]
  after_results_simp
set_option maxHeartbeats 4000000 in
theorem q_arg6 : StableHlo.after (hostOps1 (F := Ideal)) (U) (Proc.devRef .tc main_arg6) = U (Proc.devRef .tc main_arg6) := by
  dsimp only [hostOps1]
  after_results_simp
set_option maxHeartbeats 4000000 in
theorem q_arg7 : StableHlo.after (hostOps1 (F := Ideal)) (U) (Proc.devRef .tc main_arg7) = U (Proc.devRef .tc main_arg7) := by
  dsimp only [hostOps1]
  after_results_simp
set_option maxHeartbeats 4000000 in
theorem r_arg6 : StableHlo.after (hostOps2 (F := Ideal)) (U) (Proc.devRef .tc main_arg6) = U (Proc.devRef .tc main_arg6) := by
  dsimp only [hostOps2]
  after_results_simp

end Stretches

/-! ## The chain from the launch memory -/

section Chain

variable (m : (ℓ : Loc nD τ sig) → Buf (Elt Ideal) ℓ) (ρ : Dev nD → PrngReg) (c : Dev nD)

/-- Argument 0 as launched. -/
abbrev x0 := m ((c.tc : Thread nD τ).loc main_arg0)
/-- Argument 1 as launched. -/
abbrev x1 := m ((c.tc : Thread nD τ).loc main_arg1)
/-- Argument 2 as launched. -/
abbrev x2 := m ((c.tc : Thread nD τ).loc main_arg2)
/-- Argument 3 as launched. -/
abbrev x3 := m ((c.tc : Thread nD τ).loc main_arg3)
/-- Argument 4 as launched. -/
abbrev x4 := m ((c.tc : Thread nD τ).loc main_arg4)
/-- Argument 5 as launched. -/
abbrev x5 := m ((c.tc : Thread nD τ).loc main_arg5)
/-- Argument 6 as launched. -/
abbrev x6 := m ((c.tc : Thread nD τ).loc main_arg6)
/-- Argument 7 as launched. -/
abbrev x7 := m ((c.tc : Thread nD τ).loc main_arg7)
/-- Argument 8 as launched. -/
abbrev x8 := m ((c.tc : Thread nD τ).loc main_arg8)

/-! After the first stretch: endpoints, weights, degrees and the two comparisons are the reference's stages. -/
theorem W1_v5 : W1 m ρ c (Proc.devRef .tc main_v5) = Cert.ReferenceIdeal.Read.val_main_v5 (F := Ideal) (x8 m c) := s0_v5 (W0 m ρ c)
theorem W1_v6 : W1 m ρ c (Proc.devRef .tc main_v6) = Cert.ReferenceIdeal.Read.val_main_v6 (F := Ideal) (x8 m c) := s0_v6 (W0 m ρ c)
theorem W1_v8 : W1 m ρ c (Proc.devRef .tc main_v8) = Cert.ReferenceIdeal.Read.val_main_v8 (F := Ideal) (x1 m c) := s0_v8 (W0 m ρ c)
theorem W1_v11 : W1 m ρ c (Proc.devRef .tc main_v11) = Cert.ReferenceIdeal.Read.val_main_v11 (F := Ideal) (x1 m c) (x8 m c) := s0_v11 (W0 m ρ c)
theorem W1_v13 : W1 m ρ c (Proc.devRef .tc main_v13) = Cert.ReferenceIdeal.Read.val_main_v13 (F := Ideal) (x1 m c) (x8 m c) := s0_v13 (W0 m ρ c)
theorem W1_v15 : W1 m ρ c (Proc.devRef .tc main_v15) = Cert.ReferenceIdeal.Read.val_main_v15 (F := Ideal) (x1 m c) (x8 m c) := s0_v15 (W0 m ρ c)
theorem W1_cst_3 : W1 m ρ c (Proc.devRef .tc main_cst_3) = Cert.ReferenceIdeal.Read.val_main_cst_3 (F := Ideal) := s0_cst_3 (W0 m ρ c)

/-! The inverse square roots of the degrees. -/
theorem W2_v16 : W2 m ρ c (Proc.devRef .tc main_v16) = Cert.ReferenceIdeal.Read.val_main_v16 (F := Ideal) (x1 m c) (x8 m c) :=
  (s1_v16 (W1 m ρ c)).trans (by rw [W1_v15 m ρ c, W1_v11 m ρ c, W1_cst_3 m ρ c]; rfl)
theorem W3_v17 : W3 m ρ c (Proc.devRef .tc main_v17) = Cert.ReferenceIdeal.Read.val_main_v17 (F := Ideal) (x1 m c) (x8 m c) :=
  (s2_v17 (W2 m ρ c)).trans (by rw [W2_v16 m ρ c]; rfl)
theorem W3_cst_4 : W3 m ρ c (Proc.devRef .tc main_cst_4) = Cert.ReferenceIdeal.Read.val_main_cst_4 (F := Ideal) := s2_cst_4 (W2 m ρ c)
theorem W3_v13 : W3 m ρ c (Proc.devRef .tc main_v13) = Cert.ReferenceIdeal.Read.val_main_v13 (F := Ideal) (x1 m c) (x8 m c) := (p13 (W1 m ρ c)).trans (W1_v13 m ρ c)
theorem W4_v18 : W4 m ρ c (Proc.devRef .tc main_v18) = Cert.ReferenceIdeal.Read.val_main_v18 (F := Ideal) (x1 m c) (x8 m c) :=
  (s3_v18 (W3 m ρ c)).trans (by rw [W3_v13 m ρ c, W3_v17 m ρ c, W3_cst_4 m ρ c]; rfl)
theorem W4_v8 : W4 m ρ c (Proc.devRef .tc main_v8) = Cert.ReferenceIdeal.Read.val_main_v8 (F := Ideal) (x1 m c) := (p8 (W1 m ρ c)).trans (W1_v8 m ρ c)
theorem W4_v6 : W4 m ρ c (Proc.devRef .tc main_v6) = Cert.ReferenceIdeal.Read.val_main_v6 (F := Ideal) (x8 m c) := (p6a (W1 m ρ c)).trans (W1_v6 m ρ c)

/-! At the first launch: the scale column, the edge factors, the endpoints, the arguments. -/
theorem W5_v27 : W5 m ρ c (Proc.devRef .tc main_v27) = dcol (x1 m c) (x8 m c) :=
  (s4_v27 (W4 m ρ c)).trans (by rw [W4_v18 m ρ c]; rfl)
theorem W5_v28 : W5 m ρ c (Proc.devRef .tc main_v28) = ecol (x1 m c) (x8 m c) :=
  (s4_v28 (W4 m ρ c)).trans (by rw [W4_v8 m ρ c, W4_v18 m ρ c, W4_v6 m ρ c]; rfl)
theorem W5_v6 : W5 m ρ c (Proc.devRef .tc main_v6) = Cert.ReferenceIdeal.Read.val_main_v6 (F := Ideal) (x8 m c) := (p6b (W4 m ρ c)).trans (W4_v6 m ρ c)
theorem W5_v5 : W5 m ρ c (Proc.devRef .tc main_v5) = Cert.ReferenceIdeal.Read.val_main_v5 (F := Ideal) (x8 m c) := (p5 (W1 m ρ c)).trans (W1_v5 m ρ c)
theorem W5_arg0 : W5 m ρ c (Proc.devRef .tc main_arg0) = (x0 m c) := pa0 (W0 m ρ c)
theorem W5_arg2 : W5 m ρ c (Proc.devRef .tc main_arg2) = (x2 m c) := pa2 (W0 m ρ c)
theorem W5_arg3 : W5 m ρ c (Proc.devRef .tc main_arg3) = (x3 m c) := pa3 (W0 m ρ c)
theorem W5_arg4 : W5 m ρ c (Proc.devRef .tc main_arg4) = (x4 m c) := pa4 (W0 m ρ c)
theorem W5_arg5 : W5 m ρ c (Proc.devRef .tc main_arg5) = (x5 m c) := pa5 (W0 m ρ c)
theorem W5_arg6 : W5 m ρ c (Proc.devRef .tc main_arg6) = (x6 m c) := pa6 (W0 m ρ c)
theorem W5_arg7 : W5 m ρ c (Proc.devRef .tc main_arg7) = (x7 m c) := pa7 (W0 m ρ c)

/-! After the first launch. -/
theorem W6_v29 : W6 m ρ c (Proc.devRef .tc main_v29) = projScaled (x0 m c) (x2 m c) (dcol (x1 m c) (x8 m c)) :=
  (W6_arr m ρ c 3).trans ((arr0 (V5 m ρ) c).trans (by
    show projScaled (W5 m ρ c (Proc.devRef .tc main_arg0)) (W5 m ρ c (Proc.devRef .tc main_arg2)) (W5 m ρ c (Proc.devRef .tc main_v27)) = _
    rw [W5_arg0 m ρ c, W5_arg2 m ρ c, W5_v27 m ρ c]))
theorem W6_v5 : W6 m ρ c (Proc.devRef .tc main_v5) = Cert.ReferenceIdeal.Read.val_main_v5 (F := Ideal) (x8 m c) := (W6_of_ne m ρ c main_v5 (by decide)).trans (W5_v5 m ρ c)
theorem W6_v6 : W6 m ρ c (Proc.devRef .tc main_v6) = Cert.ReferenceIdeal.Read.val_main_v6 (F := Ideal) (x8 m c) := (W6_of_ne m ρ c main_v6 (by decide)).trans (W5_v6 m ρ c)
theorem W6_v27 : W6 m ρ c (Proc.devRef .tc main_v27) = dcol (x1 m c) (x8 m c) :=
  ((W6_arr m ρ c 2).trans (((dat0 (V5 m ρ) c).arrAt_in 2 rfl _).trans (A_eq0 (V5 m ρ) c 2))).trans (W5_v27 m ρ c)
theorem W6_v28 : W6 m ρ c (Proc.devRef .tc main_v28) = ecol (x1 m c) (x8 m c) := (W6_of_ne m ρ c main_v28 (by decide)).trans (W5_v28 m ρ c)
theorem W6_arg3 : W6 m ρ c (Proc.devRef .tc main_arg3) = (x3 m c) := (W6_of_ne m ρ c main_arg3 (by decide)).trans (W5_arg3 m ρ c)
theorem W6_arg4 : W6 m ρ c (Proc.devRef .tc main_arg4) = (x4 m c) := (W6_of_ne m ρ c main_arg4 (by decide)).trans (W5_arg4 m ρ c)
theorem W6_arg5 : W6 m ρ c (Proc.devRef .tc main_arg5) = (x5 m c) := (W6_of_ne m ρ c main_arg5 (by decide)).trans (W5_arg5 m ρ c)
theorem W6_arg6 : W6 m ρ c (Proc.devRef .tc main_arg6) = (x6 m c) := (W6_of_ne m ρ c main_arg6 (by decide)).trans (W5_arg6 m ρ c)
theorem W6_arg7 : W6 m ρ c (Proc.devRef .tc main_arg7) = (x7 m c) := (W6_of_ne m ρ c main_arg7 (by decide)).trans (W5_arg7 m ρ c)

/-! At the second launch: the first round of message passing and the first bias row. -/
theorem W7_v42 : W7 m ρ c (Proc.devRef .tc main_v42) = aggregate (projScaled (x0 m c) (x2 m c) (dcol (x1 m c) (x8 m c))) (x1 m c) (x8 m c) :=
  (s5_v42 (W6 m ρ c)).trans (by rw [W6_v29 m ρ c, W6_v28 m ρ c, W6_v5 m ρ c, W6_v6 m ρ c]; rfl)
theorem W7_v43 : W7 m ρ c (Proc.devRef .tc main_v43) = row (x3 m c) :=
  (s5_v43 (W6 m ρ c)).trans (by rw [W6_arg3 m ρ c])
theorem W7_v5 : W7 m ρ c (Proc.devRef .tc main_v5) = Cert.ReferenceIdeal.Read.val_main_v5 (F := Ideal) (x8 m c) := (q_v5 (W6 m ρ c)).trans (W6_v5 m ρ c)
theorem W7_v6 : W7 m ρ c (Proc.devRef .tc main_v6) = Cert.ReferenceIdeal.Read.val_main_v6 (F := Ideal) (x8 m c) := (q_v6 (W6 m ρ c)).trans (W6_v6 m ρ c)
theorem W7_v27 : W7 m ρ c (Proc.devRef .tc main_v27) = dcol (x1 m c) (x8 m c) := (q_v27 (W6 m ρ c)).trans (W6_v27 m ρ c)
theorem W7_v28 : W7 m ρ c (Proc.devRef .tc main_v28) = ecol (x1 m c) (x8 m c) := (q_v28 (W6 m ρ c)).trans (W6_v28 m ρ c)
theorem W7_arg4 : W7 m ρ c (Proc.devRef .tc main_arg4) = (x4 m c) := (q_arg4 (W6 m ρ c)).trans (W6_arg4 m ρ c)
theorem W7_arg5 : W7 m ρ c (Proc.devRef .tc main_arg5) = (x5 m c) := (q_arg5 (W6 m ρ c)).trans (W6_arg5 m ρ c)
theorem W7_arg6 : W7 m ρ c (Proc.devRef .tc main_arg6) = (x6 m c) := (q_arg6 (W6 m ρ c)).trans (W6_arg6 m ρ c)
theorem W7_arg7 : W7 m ρ c (Proc.devRef .tc main_arg7) = (x7 m c) := (q_arg7 (W6 m ρ c)).trans (W6_arg7 m ρ c)

/-! After the second launch. -/
theorem W8_v44 : W8 m ρ c (Proc.devRef .tc main_v44) = denseScaled (aggregate (projScaled (x0 m c) (x2 m c) (dcol (x1 m c) (x8 m c))) (x1 m c) (x8 m c)) (row (x3 m c)) (x4 m c) (dcol (x1 m c) (x8 m c)) :=
  (W8_arr m ρ c 4).trans ((arr1 (V7 m ρ) c).trans (by
    show denseScaled (W7 m ρ c (Proc.devRef .tc main_v42)) (W7 m ρ c (Proc.devRef .tc main_v43)) (W7 m ρ c (Proc.devRef .tc main_arg4)) (W7 m ρ c (Proc.devRef .tc main_v27)) = _
    rw [W7_v42 m ρ c, W7_v43 m ρ c, W7_arg4 m ρ c, W7_v27 m ρ c]))
theorem W8_v5 : W8 m ρ c (Proc.devRef .tc main_v5) = Cert.ReferenceIdeal.Read.val_main_v5 (F := Ideal) (x8 m c) := (W8_of_ne m ρ c main_v5 (by decide)).trans (W7_v5 m ρ c)
theorem W8_v6 : W8 m ρ c (Proc.devRef .tc main_v6) = Cert.ReferenceIdeal.Read.val_main_v6 (F := Ideal) (x8 m c) := (W8_of_ne m ρ c main_v6 (by decide)).trans (W7_v6 m ρ c)
theorem W8_v28 : W8 m ρ c (Proc.devRef .tc main_v28) = ecol (x1 m c) (x8 m c) := (W8_of_ne m ρ c main_v28 (by decide)).trans (W7_v28 m ρ c)
theorem W8_arg5 : W8 m ρ c (Proc.devRef .tc main_arg5) = (x5 m c) := (W8_of_ne m ρ c main_arg5 (by decide)).trans (W7_arg5 m ρ c)
theorem W8_arg6 : W8 m ρ c (Proc.devRef .tc main_arg6) = (x6 m c) := (W8_of_ne m ρ c main_arg6 (by decide)).trans (W7_arg6 m ρ c)
theorem W8_arg7 : W8 m ρ c (Proc.devRef .tc main_arg7) = (x7 m c) := (W8_of_ne m ρ c main_arg7 (by decide)).trans (W7_arg7 m ρ c)

/-! At the third launch: the second round of message passing and the two bias rows. -/
theorem W9_v57 : W9 m ρ c (Proc.devRef .tc main_v57) = aggregate (denseScaled (aggregate (projScaled (x0 m c) (x2 m c) (dcol (x1 m c) (x8 m c))) (x1 m c) (x8 m c)) (row (x3 m c)) (x4 m c) (dcol (x1 m c) (x8 m c))) (x1 m c) (x8 m c) :=
  (s6_v57 (W8 m ρ c)).trans (by rw [W8_v44 m ρ c, W8_v28 m ρ c, W8_v5 m ρ c, W8_v6 m ρ c]; rfl)
theorem W9_v58 : W9 m ρ c (Proc.devRef .tc main_v58) = row (x5 m c) := (s6_v58 (W8 m ρ c)).trans (by rw [W8_arg5 m ρ c])
theorem W9_v59 : W9 m ρ c (Proc.devRef .tc main_v59) = row (x7 m c) := (s6_v59 (W8 m ρ c)).trans (by rw [W8_arg7 m ρ c])
theorem W9_arg6 : W9 m ρ c (Proc.devRef .tc main_arg6) = (x6 m c) := (r_arg6 (W8 m ρ c)).trans (W8_arg6 m ρ c)

/-- THE RESULT BUFFER after the third launch holds the kernel's composed term of the argument arrays. -/
theorem W10_v60 : W10 m ρ c (Proc.devRef .tc main_v60) = kernelTerm (x0 m c) (x1 m c) (x2 m c) (x3 m c) (x4 m c) (x5 m c) (x6 m c) (x7 m c) (x8 m c) :=
  (W10_arr m ρ c 4).trans ((arr2 (V9 m ρ) c).trans (by
    show denseBias (W9 m ρ c (Proc.devRef .tc main_v57)) (W9 m ρ c (Proc.devRef .tc main_v58)) (W9 m ρ c (Proc.devRef .tc main_arg6)) (W9 m ρ c (Proc.devRef .tc main_v59)) = _
    rw [W9_v57 m ρ c, W9_v58 m ρ c, W9_arg6 m ρ c, W9_v59 m ρ c]
    rfl))

end Chain

end Cert.KernelIdeal.Whole

end
-- ==== Proof.LibGatherVec.lean ====
/-
  A gather of single entries of a vector, read at an index.

  A vector of `M` entries gathered at a column of `R` entry numbers gives `R` entries; entry `r` of the result is the
  vector's entry whose number is the `r`-th start index, read as a signed integer and clamped into `[0, M - 1]`. It is
  the companion, for an operand of one axis, of the gather of whole rows of a two-axis array at the same column of row
  numbers: both read at the same clamped number.
-/
import Idealize.ShloMosaic.Lib.ValueIdx
import Idealize.ShloMosaic.PureOps.ShapeOps

noncomputable section

namespace Cert.LibGatherVec

open Idealize.ShloMosaic Idealize.ShloMosaic.ValueIdx

variable {α : Type}

/-- The dimension numbers of an entry gather: the start index names the one axis, which is collapsed; the slice is one
    entry. -/
abbrev vecDims (M R : Nat) (wf : GatherDims.WF ⟨1, ![M]⟩ ⟨2, ![R, 1]⟩ ⟨1, ![R]⟩ [] [0] [] [0] [] 1 ![1]) :
    GatherDims ⟨1, ![M]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The entry gather at `r`: the entry the `r`-th start index names, clamped into `[0, M - 1]`. -/
theorem gather_vec_apply {M R w : Nat} (hM : 0 < M)
    (wf : GatherDims.WF ⟨1, ![M]⟩ ⟨2, ![R, 1]⟩ ⟨1, ![R]⟩ [] [0] [] [0] [] 1 ![1])
    (x : (⟨1, ![M]⟩ : Shape).Idx → α) (idx : IVec ⟨2, ![R, 1]⟩ w) (y : (⟨1, ![R]⟩ : Shape).Idx) :
    Host.gather (vecDims M R wf) x idx y
      = x (ix1 ⟨min (idx (ix2 (y 0) (0 : Fin 1))).toInt.toNat (M - 1), by omega⟩) := by
  unfold Host.gather
  congr 1
  funext a
  obtain rfl : a = 0 := Subsingleton.elim _ _
  refine Fin.ext ?_
  show (vecDims M R wf).start y idx 0 + (vecDims M R wf).batchCoord y 0 + (vecDims M R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims M R wf).startIndexMap from List.mem_singleton.mpr rfl)]
  have hsi : (vecDims M R wf).siIdx y ⟨List.idxOf (0 : Fin 1) (vecDims M R wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Cert.LibGatherVec

end
-- ==== Proof.LibGatherCells.lean ====
/-
  Two gathers of whole cells, read at an index.

  `gather_rows_apply`: an array of `M` rows of `C` entries gathered at a column of `R` row numbers gives `R` rows; entry
  `(r, c)` of the result is entry `c` of the row whose number is the `r`-th start index, read as a signed integer and clamped
  into `[0, M - 1]`.

  `gather_cells_apply`: an array `[C, D, H, W]` gathered at `N` triples `(z, y, x)` with the whole channel axis as the slice gives
  `[C, N]`; entry `(c, n)` of the result is the array at channel `c` and at the `n`-th triple, each component read signed and
  clamped into its axis.
-/
import Idealize.ShloMosaic.Lib.ValueIdx
import Idealize.ShloMosaic.PureOps.ShapeOps

noncomputable section

namespace Cert.Lib.GatherCells

open Idealize.ShloMosaic Idealize.ShloMosaic.ValueIdx

variable {α : Type}

/-- The dimension numbers of a row gather: the start index names axis 0, which is collapsed; the slice is one whole row. -/
abbrev rowsDims (M R C : Nat) (wf : GatherDims.WF ⟨2, ![M, C]⟩ ⟨2, ![R, 1]⟩ ⟨2, ![R, C]⟩ [1] [0] [] [0] [] 1 ![1, C]) :
    GatherDims ⟨2, ![M, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row gather at `(r, c)`: entry `c` of the row the `r`-th start index names, clamped into `[0, M - 1]`. -/
theorem gather_rows_apply {M R C w : Nat} (hM : 0 < M)
    (wf : GatherDims.WF ⟨2, ![M, C]⟩ ⟨2, ![R, 1]⟩ ⟨2, ![R, C]⟩ [1] [0] [] [0] [] 1 ![1, C])
    (x : (⟨2, ![M, C]⟩ : Shape).Idx → α) (idx : IVec ⟨2, ![R, 1]⟩ w) (y : (⟨2, ![R, C]⟩ : Shape).Idx) :
    Host.gather (rowsDims M R C wf) x idx y
      = x (ix2 ⟨min (idx (ix2 (y 0) (0 : Fin 1))).toInt.toNat (M - 1), by omega⟩ (y 1)) := by
  have h0 : (rowsDims M R C wf).start y idx (0 : Fin 2) + (rowsDims M R C wf).batchCoord y (0 : Fin 2) + (rowsDims M R C wf).offCoord y (0 : Fin 2)
      = min (idx (ix2 (y 0) (0 : Fin 1))).toInt.toNat (M - 1) := by
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 2) ∈ (rowsDims M R C wf).startIndexMap from List.mem_singleton.mpr rfl)]
    have hsi : (rowsDims M R C wf).siIdx y ⟨List.idxOf (0 : Fin 2) (rowsDims M R C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  have h1 : (rowsDims M R C wf).start y idx (1 : Fin 2) + (rowsDims M R C wf).batchCoord y (1 : Fin 2) + (rowsDims M R C wf).offCoord y (1 : Fin 2)
      = (y 1).val := by
    rw [GatherDims.batchCoord_eq_zero _ _ _ List.not_mem_nil, Nat.add_zero]
    have hst : (rowsDims M R C wf).start y idx (1 : Fin 2) = 0 := by
      unfold GatherDims.start
      rw [dif_neg (show ¬ ((1 : Fin 2) ∈ ([0] : List (Fin 2))) by decide)]
    rw [hst, Nat.zero_add]
    unfold GatherDims.offCoord
    rw [dif_pos (show (1 : Fin 2) ∈ (rowsDims M R C wf).sKept from (show (1 : Fin 2) ∈ ([1] : List (Fin 2)) by decide))]
    rfl
  unfold Host.gather
  congr 1
  funext a
  refine Fin.ext ?_
  match a with
  | ⟨0, _⟩ => exact h0
  | ⟨1, _⟩ => exact h1

/-- The dimension numbers of a gather of whole channel columns at `(z, y, x)` triples. -/
abbrev cellsDims (C D H W N : Nat)
    (wf : GatherDims.WF ⟨4, ![C, D, H, W]⟩ ⟨2, ![N, 3]⟩ ⟨2, ![C, N]⟩ [0] [1, 2, 3] [] [1, 2, 3] [] 1 ![C, 1, 1, 1]) :
    GatherDims ⟨4, ![C, D, H, W]⟩ ⟨2, ![N, 3]⟩ ⟨2, ![C, N]⟩ where
  offsetDims := [0]
  collapsedSliceDims := [1, 2, 3]
  operandBatchingDims := []
  startIndicesBatchingDims := []
  startIndexMap := [1, 2, 3]
  indexVectorDim := 1
  sliceSizes := ![C, 1, 1, 1]
  wf := wf

/-- The cell gather at `(c, n)`: the array at channel `c` and at the `n`-th triple, each component clamped into its axis. -/
theorem gather_cells_apply {C D H W N w : Nat} (hD : 0 < D) (hH : 0 < H) (hW : 0 < W)
    (wf : GatherDims.WF ⟨4, ![C, D, H, W]⟩ ⟨2, ![N, 3]⟩ ⟨2, ![C, N]⟩ [0] [1, 2, 3] [] [1, 2, 3] [] 1 ![C, 1, 1, 1])
    (x : (⟨4, ![C, D, H, W]⟩ : Shape).Idx → α) (idx : IVec ⟨2, ![N, 3]⟩ w) (y : (⟨2, ![C, N]⟩ : Shape).Idx) :
    Host.gather (cellsDims C D H W N wf) x idx y
      = x (ix4 (y 0)
          ⟨min (idx (ix2 (y 1) (0 : Fin 3))).toInt.toNat (D - 1), by omega⟩
          ⟨min (idx (ix2 (y 1) (1 : Fin 3))).toInt.toNat (H - 1), by omega⟩
          ⟨min (idx (ix2 (y 1) (2 : Fin 3))).toInt.toNat (W - 1), by omega⟩) := by
  have hsi : ∀ (k : Fin 3) (hk : k.val < (cellsDims C D H W N wf).startIndexMap.length),
      (cellsDims C D H W N wf).siIdx y ⟨k.val, hk⟩ = ix2 (y 1) k := by
    intro k hk
    funext b; refine Fin.ext ?_
    match b with
    | ⟨0, _⟩ => rfl
    | ⟨1, _⟩ => rfl
  have h0 : (cellsDims C D H W N wf).start y idx (0 : Fin 4) + (cellsDims C D H W N wf).batchCoord y (0 : Fin 4) + (cellsDims C D H W N wf).offCoord y (0 : Fin 4)
      = (y 0).val := by
    rw [GatherDims.batchCoord_eq_zero _ _ _ List.not_mem_nil, Nat.add_zero]
    have hst : (cellsDims C D H W N wf).start y idx (0 : Fin 4) = 0 := by
      unfold GatherDims.start
      rw [dif_neg (show ¬ ((0 : Fin 4) ∈ ([1, 2, 3] : List (Fin 4))) by decide)]
    rw [hst, Nat.zero_add]
    unfold GatherDims.offCoord
    rw [dif_pos (show (0 : Fin 4) ∈ (cellsDims C D H W N wf).sKept from (show (0 : Fin 4) ∈ ([0] : List (Fin 4)) by decide))]
    rfl
  have h1 : (cellsDims C D H W N wf).start y idx (1 : Fin 4) + (cellsDims C D H W N wf).batchCoord y (1 : Fin 4) + (cellsDims C D H W N wf).offCoord y (1 : Fin 4)
      = min (idx (ix2 (y 1) (0 : Fin 3))).toInt.toNat (D - 1) := by
    rw [GatherDims.batchCoord_eq_zero _ _ _ List.not_mem_nil, Nat.add_zero,
      GatherDims.offCoord_eq_zero _ _ _ (fun h => ((GatherDims.mem_sKept _ _).mp h).1 (show (1 : Fin 4) ∈ ([1, 2, 3] : List (Fin 4)) by decide)), Nat.add_zero]
    unfold GatherDims.start
    rw [dif_pos (show (1 : Fin 4) ∈ ([1, 2, 3] : List (Fin 4)) by decide)]
    rw [show (⟨List.idxOf (1 : Fin 4) (cellsDims C D H W N wf).startIndexMap, List.idxOf_lt_length_iff.2 (show (1 : Fin 4) ∈ ([1, 2, 3] : List (Fin 4)) by decide)⟩ :
        Fin (cellsDims C D H W N wf).startIndexMap.length) = ⟨(0 : Fin 3).val, show (0 : Fin 3).val < ([1, 2, 3] : List (Fin 4)).length by decide⟩ from Fin.ext (show List.idxOf (1 : Fin 4) ([1, 2, 3] : List (Fin 4)) = 0 by decide), hsi]
    rfl
  have h2 : (cellsDims C D H W N wf).start y idx (2 : Fin 4) + (cellsDims C D H W N wf).batchCoord y (2 : Fin 4) + (cellsDims C D H W N wf).offCoord y (2 : Fin 4)
      = min (idx (ix2 (y 1) (1 : Fin 3))).toInt.toNat (H - 1) := by
    rw [GatherDims.batchCoord_eq_zero _ _ _ List.not_mem_nil, Nat.add_zero,
      GatherDims.offCoord_eq_zero _ _ _ (fun h => ((GatherDims.mem_sKept _ _).mp h).1 (show (2 : Fin 4) ∈ ([1, 2, 3] : List (Fin 4)) by decide)), Nat.add_zero]
    unfold GatherDims.start
    rw [dif_pos (show (2 : Fin 4) ∈ ([1, 2, 3] : List (Fin 4)) by decide)]
    rw [show (⟨List.idxOf (2 : Fin 4) (cellsDims C D H W N wf).startIndexMap, List.idxOf_lt_length_iff.2 (show (2 : Fin 4) ∈ ([1, 2, 3] : List (Fin 4)) by decide)⟩ :
        Fin (cellsDims C D H W N wf).startIndexMap.length) = ⟨(1 : Fin 3).val, show (1 : Fin 3).val < ([1, 2, 3] : List (Fin 4)).length by decide⟩ from Fin.ext (show List.idxOf (2 : Fin 4) ([1, 2, 3] : List (Fin 4)) = 1 by decide), hsi]
    rfl
  have h3 : (cellsDims C D H W N wf).start y idx (3 : Fin 4) + (cellsDims C D H W N wf).batchCoord y (3 : Fin 4) + (cellsDims C D H W N wf).offCoord y (3 : Fin 4)
      = min (idx (ix2 (y 1) (2 : Fin 3))).toInt.toNat (W - 1) := by
    rw [GatherDims.batchCoord_eq_zero _ _ _ List.not_mem_nil, Nat.add_zero,
      GatherDims.offCoord_eq_zero _ _ _ (fun h => ((GatherDims.mem_sKept _ _).mp h).1 (show (3 : Fin 4) ∈ ([1, 2, 3] : List (Fin 4)) by decide)), Nat.add_zero]
    unfold GatherDims.start
    rw [dif_pos (show (3 : Fin 4) ∈ ([1, 2, 3] : List (Fin 4)) by decide)]
    rw [show (⟨List.idxOf (3 : Fin 4) (cellsDims C D H W N wf).startIndexMap, List.idxOf_lt_length_iff.2 (show (3 : Fin 4) ∈ ([1, 2, 3] : List (Fin 4)) by decide)⟩ :
        Fin (cellsDims C D H W N wf).startIndexMap.length) = ⟨(2 : Fin 3).val, show (2 : Fin 3).val < ([1, 2, 3] : List (Fin 4)).length by decide⟩ from Fin.ext (show List.idxOf (3 : Fin 4) ([1, 2, 3] : List (Fin 4)) = 2 by decide), hsi]
    rfl
  unfold Host.gather
  congr 1
  funext a
  refine Fin.ext ?_
  match a with
  | ⟨0, _⟩ => exact h0
  | ⟨1, _⟩ => exact h1
  | ⟨2, _⟩ => exact h2
  | ⟨3, _⟩ => exact h3

end Cert.Lib.GatherCells

end
-- ==== Proof.LibRowOfVector.lean ====
/-
  A vector laid out as a one-row array, two spellings.

  A vector of N entries reshaped to a [1, N] array and the same vector broadcast into a [1, N] array along a new
  leading axis (the vector's one axis sent to axis 1) are the same array: entry (0, j) is the vector's entry j.
-/
import Idealize.ShloMosaic.Lib.Pipeline.Value

noncomputable section

namespace Cert.LibRowOfVector

open Idealize.ShloMosaic

/-- The reshape of a vector to one row is its broadcast along a new leading axis. -/
theorem reshape_eq_broadcast {α : Type} {N : Nat} (b : (⟨1, ![N]⟩ : Shape).Idx → α)
    (hs : (⟨1, ![N]⟩ : Shape).ShapeCasts ⟨2, ![1, N]⟩)
    (hb : (⟨1, ![N]⟩ : Shape).BroadcastsInDim ⟨2, ![1, N]⟩ ![1]) :
    shapeCast ⟨2, ![1, N]⟩ b hs = broadcastInDim ⟨2, ![1, N]⟩ ![1] hb b := by
  funext j
  rw [shapeCast_addUnit_apply ![N] b hs j, broadcastInDim_apply ![1] hb b j (fun a => j a.succ) ?_]
  intro a
  match a with
  | ⟨0, _⟩ =>
    show (j 1).val = if N = 1 then 0 else (j 1).val
    split
    · have h1 : (j 1).val < N := (j 1).isLt
      omega
    · rfl

end Cert.LibRowOfVector

end
-- ==== Proof.Bridge.lean ====
/-
  The kernel's composed term is the reference's result.

  Per edge `e` and feature `j` the two programs form the same product of four factors. With `s` the source of `e` (its
  start index clamped into the node range, the same clamped number for the gather of node rows and the gather of
  `dinv`), `w` the edge's weight and `d'` the gathered `dinv` of its target:
    kernel     (w · d') · (P(s, j) · dinv(s))        — the rows were scaled by `dinv` before the gather,
    reference  ((dinv(s) · w) · d') · P(s, j)        — the edge's norm is formed first.
  Multiplication of extended reals is commutative and associative, so the messages agree entry by entry, with no
  assumption on the entries; the sums into the target rows are then the same operation on the same array. The dense
  parts agree because a kernel's product into a zero accumulator and the host's product are the same sum, a reshape of
  a vector to one row is its broadcast along a new leading axis, and format changes are the identity.
-/
import proofs.«104920_j78795470013089_2_alg».proof.Proof.Terms
import proofs.«104920_j78795470013089_2_alg».proof.Proof.LibGatherVec
import proofs.«104920_j78795470013089_2_alg».proof.Proof.LibGatherCells
import proofs.«104920_j78795470013089_2_alg».proof.Proof.LibRowOfVector

noncomputable section

namespace Cert.Bridge

open Idealize.ShloMosaic Idealize.ShloMosaic.ValueIdx Cert.Layers Cert.LibTileRows Cert.Terms
open Cert.ReferenceIdeal Cert.ReferenceIdeal.Gen Cert.ReferenceIdeal.Read

/-! ## Columns and gathers read at an index -/

/-- A vector of 850000 entries as a column reads, at row `e`, the vector's entry `e`. -/
theorem col_apply {α : Type} (v : S850000.Idx → α) (e : Fin 850000) :
    broadcastInDim S850000x1 ![0] bcast_S850000_S850000x1_0 v (ix2 e (0 : Fin 1)) = v (ix1 e) :=
  broadcastInDim_apply ![0] bcast_S850000_S850000x1_0 v (ix2 e (0 : Fin 1)) (ix1 e) fun a => by
    match a with
    | ⟨0, _⟩ =>
      show e.val = if (850000 : ℕ) = 1 then 0 else e.val
      split
      · omega
      · rfl

/-- A column of 850000 entries broadcast along 128 features reads, at `(e, j)`, the column's entry `e`. -/
theorem cols_apply {α : Type} (v : S850000x1.Idx → α) (e : Fin 850000) (j : Fin 128) :
    broadcastInDim S850000x128 ![0, 1] bcast_S850000x1_S850000x128_0_1 v (ix2 e j) = v (ix2 e (0 : Fin 1)) :=
  broadcastInDim_apply ![0, 1] bcast_S850000x1_S850000x128_0_1 v (ix2 e j) (ix2 e (0 : Fin 1)) fun a => by
    match a with
    | ⟨0, _⟩ =>
      show e.val = if (850000 : ℕ) = 1 then 0 else e.val
      split
      · omega
      · rfl
    | ⟨1, _⟩ => rfl

/-- A vector of 50000 entries as a column reads, at row `n`, the vector's entry `n`. -/
theorem ncol_apply {α : Type} (v : S50000.Idx → α) (n : Fin 50000) :
    broadcastInDim Cert.KernelIdeal.S50000x1 ![0] Cert.KernelIdeal.Gen.bcast_S50000_S50000x1_0 v (ix2 n (0 : Fin 1)) = v (ix1 n) :=
  broadcastInDim_apply ![0] Cert.KernelIdeal.Gen.bcast_S50000_S50000x1_0 v (ix2 n (0 : Fin 1)) (ix1 n) fun a => by
    match a with
    | ⟨0, _⟩ =>
      show n.val = if (50000 : ℕ) = 1 then 0 else n.val
      split
      · omega
      · rfl

/-- The inverse square roots as a column read at node `n`. -/
theorem dcol_apply (x1 : (⟨S800000, .f32⟩ : BufTy).Contents (Elt Ideal)) (x8 : (⟨S2x800000, .i32⟩ : BufTy).Contents (Elt Ideal))
    (n : Fin 50000) : (dcol x1 x8 (ix2 n (0 : Fin 1)) : EReal) = val_main_v18 (F := Ideal) x1 x8 (ix1 n) := by
  unfold dcol
  exact ncol_apply (val_main_v18 (F := Ideal) x1 x8 : S50000.Idx → EReal) n

/-- The node an edge's start index names, clamped into the node range. -/
def clampRow (idx : IVec S850000x1 32) (e : Fin 850000) : Fin 50000 :=
  ⟨min (idx (ix2 e (0 : Fin 1))).toInt.toNat (50000 - 1), by omega⟩

/-- The gather of node rows at `(e, j)`: entry `j` of the row of the clamped node. -/
theorem gather_rows {α : Type} (P : S50000x128.Idx → α) (idx : IVec S850000x1 32) (e : Fin 850000) (j : Fin 128) :
    Host.gather gather_S50000x128_S850000x1_S850000x128_1_0_n_n_0_1_1128 P idx (ix2 e j) = P (ix2 (clampRow idx e) j) :=
  Cert.Lib.GatherCells.gather_rows_apply (M := 50000) (R := 850000) (C := 128) (by decide) _ P idx (ix2 e j)

/-- The gather of node entries at `e`: the entry of the same clamped node. -/
theorem gather_vec {α : Type} (d : S50000.Idx → α) (idx : IVec S850000x1 32) (e : Fin 850000) :
    Host.gather gather_S50000_S850000x1_S850000_n_0_n_n_0_1_1 d idx (ix1 e) = d (ix1 (clampRow idx e)) :=
  Cert.LibGatherVec.gather_vec_apply (M := 50000) (R := 850000) (by decide) _ d idx (ix1 e)

/-! ## The messages agree -/

/-- The two groupings of the four factors of a message: commutativity and associativity of the product alone. -/
theorem four_factors (w d p s : EReal) : (w * d) * (p * s) = ((s * w) * d) * p := by
  rw [mul_comm p s, ← mul_assoc (w * d) s p, mul_comm (w * d) s, ← mul_assoc s w d]

/-- The identity over arbitrary arrays: weights `w`, gathered target factors `g`, node values `dv`, start indices `idx`,
    and node rows `H` that are the rows of `P` scaled by `dv`. The kernel's messages (left) are the reference's (right). -/
theorem message_generic (w g : FVec Ideal S850000 .f32) (dv : FVec Ideal S50000 .f32) (idx : IVec S850000x1 32)
    (P : FVec Ideal S50000x128 .f32) (H : FVec Ideal S50000x128 .bf16)
    (hH : ∀ (n : Fin 50000) (j : Fin 128), (H (ix2 n j) : EReal) = (P (ix2 n j) : EReal) * dv (ix1 n)) :
    mulf (F := Ideal) (φ := .f32)
      (broadcastInDim S850000x128 ![0, 1] bcast_S850000x1_S850000x128_0_1
        (broadcastInDim S850000x1 ![0] bcast_S850000_S850000x1_0 (mulf (F := Ideal) (φ := .f32) w g)))
      (extf (F := Ideal) (φ := .bf16) .f32 (Host.gather gather_S50000x128_S850000x1_S850000x128_1_0_n_n_0_1_1128 H idx)
        Cert.KernelIdeal.Gen.bitsLt_bf16_f32)
    = mulf (F := Ideal) (φ := .f32)
        (broadcastInDim S850000x128 ![0, 1] bcast_S850000x1_S850000x128_0_1
          (broadcastInDim S850000x1 ![0] bcast_S850000_S850000x1_0
            (mulf (F := Ideal) (φ := .f32)
              (mulf (F := Ideal) (φ := .f32) (Host.gather gather_S50000_S850000x1_S850000_n_0_n_n_0_1_1 dv idx) w) g)))
        (Host.gather gather_S50000x128_S850000x1_S850000x128_1_0_n_n_0_1_1128 P idx) := by
  funext i
  obtain ⟨e, j, rfl⟩ : ∃ (e : Fin 850000) (j : Fin 128), i = ix2 e j := ⟨i 0, i 1, eq_ix2 i⟩
  show (broadcastInDim S850000x128 ![0, 1] bcast_S850000x1_S850000x128_0_1
          (broadcastInDim S850000x1 ![0] bcast_S850000_S850000x1_0 (mulf (F := Ideal) (φ := .f32) w g)) (ix2 e j) : EReal)
        * Host.gather gather_S50000x128_S850000x1_S850000x128_1_0_n_n_0_1_1128 H idx (ix2 e j)
      = (broadcastInDim S850000x128 ![0, 1] bcast_S850000x1_S850000x128_0_1
          (broadcastInDim S850000x1 ![0] bcast_S850000_S850000x1_0
            (mulf (F := Ideal) (φ := .f32)
              (mulf (F := Ideal) (φ := .f32) (Host.gather gather_S50000_S850000x1_S850000_n_0_n_n_0_1_1 dv idx) w) g)) (ix2 e j) : EReal)
        * Host.gather gather_S50000x128_S850000x1_S850000x128_1_0_n_n_0_1_1128 P idx (ix2 e j)
  rw [cols_apply, cols_apply, col_apply, col_apply, gather_rows, gather_rows, hH]
  show (w (ix1 e) * g (ix1 e)) * (P (ix2 (clampRow idx e) j) * dv (ix1 (clampRow idx e)))
    = ((Host.gather gather_S50000_S850000x1_S850000_n_0_n_n_0_1_1 dv idx (ix1 e) * w (ix1 e)) * g (ix1 e)) * P (ix2 (clampRow idx e) j)
  rw [gather_vec]
  exact four_factors _ _ _ _

/-- The wrapped source indices are one array, however often the host recomputes them. -/
theorem src_col_eq (x8 : (⟨S2x800000, .i32⟩ : BufTy).Contents (Elt Ideal)) :
    val_main_v24 (F := Ideal) x8 = val_main_v42 (F := Ideal) x8 := rfl

/-- For node rows `H` that are the rows of `P` scaled by `dinv`, the kernel's messages (edge factor times gathered row of
    `H`) are the reference's (edge norm times gathered row of `P`): the identity above at the reference's own stages. -/
theorem message_eq (x1 : (⟨S800000, .f32⟩ : BufTy).Contents (Elt Ideal)) (x8 : (⟨S2x800000, .i32⟩ : BufTy).Contents (Elt Ideal))
    (P : (⟨S50000x128, .f32⟩ : BufTy).Contents (Elt Ideal)) (H : (⟨S50000x128, .bf16⟩ : BufTy).Contents (Elt Ideal))
    (hH : ∀ (n : Fin 50000) (j : Fin 128), (H (ix2 n j) : EReal) = (P (ix2 n j) : EReal) * dcol x1 x8 (ix2 n (0 : Fin 1))) :
    (mulf (F := Ideal) (φ := .f32)
      (broadcastInDim S850000x128 ![0, 1] bcast_S850000x1_S850000x128_0_1 (ecol x1 x8) : (⟨S850000x128, .f32⟩ : BufTy).Contents (Elt Ideal))
      (extf (F := Ideal) (φ := .bf16) .f32
        (Host.gather gather_S50000x128_S850000x1_S850000x128_1_0_n_n_0_1_1128 H (val_main_v42 (F := Ideal) x8) : (⟨S850000x128, .bf16⟩ : BufTy).Contents (Elt Ideal))
        Cert.KernelIdeal.Gen.bitsLt_bf16_f32))
    = mulf (F := Ideal) (φ := .f32) (val_main_v44 (F := Ideal) x1 x8)
        (Host.gather gather_S50000x128_S850000x1_S850000x128_1_0_n_n_0_1_1128 P (val_main_v42 (F := Ideal) x8)) := by
  unfold ecol val_main_v44 val_main_v36 val_main_v34 val_main_v26 val_main_v25
  rw [src_col_eq]
  exact message_generic (val_main_v8 (F := Ideal) x1) (val_main_v33 (F := Ideal) x1 x8) (val_main_v18 (F := Ideal) x1 x8)
    (val_main_v42 (F := Ideal) x8) P H (fun n j => by rw [hH n j, dcol_apply])

/-! ## The dense parts agree -/

/-- The reference's matrix product has plain dimension numbers. -/
theorem plain_dot : Cert.LibPlainDot.Plain dot_S50000x128_S128x128_S50000x128_1_0_0_1_n_n := ⟨rfl, rfl, rfl, rfl, rfl, rfl⟩

/-- The entrywise product is the host's product. -/
theorem prod_eq (X : (⟨S50000x128, .f32⟩ : BufTy).Contents (Elt Ideal)) (W : (⟨S128x128, .f32⟩ : BufTy).Contents (Elt Ideal)) :
    rowsProd X W = Host.dotGeneral (F := Ideal) (φ₁ := .f32) (φ₂ := .f32) dot_S50000x128_S128x128_S50000x128_1_0_0_1_n_n none X W :=
  rowsProd_eq_dot dot_S50000x128_S128x128_S50000x128_1_0_0_1_n_n plain_dot.rank plain_dot.size
    plain_dot.lhs0 plain_dot.lhs1 plain_dot.rhs0 plain_dot.rhs1 X W

/-- A vector as one row, the kernel's reshape, is the reference's broadcast along a new leading axis. -/
theorem row_eq (b : (⟨S128, .f32⟩ : BufTy).Contents (Elt Ideal)) : row b = broadcastInDim S1x128 ![1] bcast_S128_S1x128_1 b :=
  Cert.LibRowOfVector.reshape_eq_broadcast b _ _

/-- The bias row added and the maximum with zero taken is the reference's add, broadcast and maximum. -/
theorem relu_eq (A : (⟨S50000x128, .f32⟩ : BufTy).Contents (Elt Ideal)) (b : (⟨S128, .f32⟩ : BufTy).Contents (Elt Ideal)) :
    rowsBiasRelu A (row b)
      = maximumf (F := Ideal) (φ := .f32)
          (addf (F := Ideal) (φ := .f32) A (broadcastInDim S50000x128 ![0, 1] bcast_S1x128_S50000x128_0_1 (broadcastInDim S1x128 ![1] bcast_S128_S1x128_1 b)))
          (broadcastInDim S50000x128 ![] bcast_S_S50000x128 (constant (F := Ideal) S_ .f32 0x00000000#32)) := by
  rw [rowsBiasRelu_eq_max A (row b) bcast_S1x128_S50000x128_0_1 bcast_S_S50000x128, row_eq]

/-- A scaled projection read at `(n, j)`: the projection's entry times the column's entry `n`. -/
theorem projScaled_apply (X : S50000x128.Idx → EReal) (W : S128x128.Idx → EReal) (D : Cert.KernelIdeal.S50000x1.Idx → EReal)
    (n : Fin 50000) (j : Fin 128) :
    projScaled X W D (ix2 n j) = rowsProd X W (ix2 n j) * D (ix2 n (0 : Fin 1)) := rfl

/-- The second layer read at `(n, j)`: the projection of the rectified rows times the column's entry `n`. -/
theorem denseScaled_apply (A : S50000x128.Idx → EReal) (B : S1x128.Idx → EReal) (W : S128x128.Idx → EReal)
    (D : Cert.KernelIdeal.S50000x1.Idx → EReal) (n : Fin 50000) (j : Fin 128) :
    denseScaled A B W D (ix2 n j) = rowsProd (rowsBiasRelu A B) W (ix2 n j) * D (ix2 n (0 : Fin 1)) := rfl

section Final

variable (x0 : (⟨S50000x128, .f32⟩ : BufTy).Contents (Elt Ideal)) (x1 : (⟨S800000, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S2x800000, .i32⟩ : BufTy).Contents (Elt Ideal))

/-- The first round of message passing. -/
theorem agg1_eq : aggregate (projScaled x0 x2 (dcol x1 x8)) x1 x8 = val_main_v48 (F := Ideal) x0 x1 x2 x8 :=
  congrArg (Host.scatterAdd (F := Ideal) scatter_S50000x128_S850000x1_S850000x128_1_0_0_1 (val_main_v46 (F := Ideal)) (val_main_v47 (F := Ideal) x8))
    (message_eq x1 x8 (val_main_v35 (F := Ideal) x0 x2) (projScaled x0 x2 (dcol x1 x8)) fun n j => by
      rw [projScaled_apply, prod_eq]
      unfold val_main_v35
      rfl)

/-- The rectified first layer. -/
theorem relu1_eq : rowsBiasRelu (val_main_v48 (F := Ideal) x0 x1 x2 x8) (row x3) = val_main_v52 (F := Ideal) x0 x1 x2 x3 x8 :=
  relu_eq _ x3

/-- The second round of message passing. -/
theorem agg2_eq : aggregate (denseScaled (val_main_v48 (F := Ideal) x0 x1 x2 x8) (row x3) x4 (dcol x1 x8)) x1 x8
    = val_main_v66 (F := Ideal) x0 x1 x2 x3 x4 x8 :=
  congrArg (Host.scatterAdd (F := Ideal) scatter_S50000x128_S850000x1_S850000x128_1_0_0_1 (val_main_v46 (F := Ideal)) (val_main_v47 (F := Ideal) x8))
    (message_eq x1 x8 (val_main_v53 (F := Ideal) x0 x1 x2 x3 x4 x8) (denseScaled (val_main_v48 (F := Ideal) x0 x1 x2 x8) (row x3) x4 (dcol x1 x8)) fun n j => by
      rw [denseScaled_apply, relu1_eq, prod_eq]
      unfold val_main_v53
      rfl)

/-- The rectified second layer. -/
theorem relu2_eq : rowsBiasRelu (val_main_v66 (F := Ideal) x0 x1 x2 x3 x4 x8) (row x5) = val_main_v70 (F := Ideal) x0 x1 x2 x3 x4 x5 x8 :=
  relu_eq _ x5

/-- The kernel's composed term is the reference's result. -/
theorem kernelTerm_eq : kernelTerm x0 x1 x2 x3 x4 x5 x6 x7 x8 = val_main_v74 (F := Ideal) x0 x1 x2 x3 x4 x5 x6 x7 x8 := by
  unfold kernelTerm
  rw [agg1_eq, agg2_eq]
  unfold denseBias
  rw [relu2_eq, prod_eq, rowsBias_eq_add _ (row x7) bcast_S1x128_S50000x128_0_1, row_eq]
  unfold val_main_v74 val_main_v71 val_main_v73 val_main_v72
  rfl

end Final

end Cert.Bridge

end
-- ==== Proof.lean ====
/-
  A two-layer graph convolution with a final dense layer, on 50000 nodes with 128 features and 800000 weighted edges
  (a self loop of weight one is appended for every node): kernel against reference on the extended reals.

  Both programs normalise an edge `e` from `s` to `t` of weight `w` by `dinv(s) · w · dinv(t)`, `dinv` the inverse square
  root of the weighted in-degree where it is positive and zero elsewhere. The reference forms that norm per edge and
  multiplies the gathered row `(X · W)(s, ·)` by it. The kernel scales row `s` of `X · W` by `dinv(s)` inside the dense layer
  (three launches, each walking the nodes in ten tiles of 5000 rows), gathers the scaled row, and multiplies by
  `w · dinv(t)`. The two messages are the same four factors in two groupings; the product of extended reals is commutative
  and associative, so they agree with no finiteness assumption, and the sums into the target rows, the bias rows, the
  maxima with zero and the matrix products are then the same operations on equal arrays. Format changes are the
  identity on the extended reals.

  The three frames are the generated ones (the reference's is its generated run with the result dropped); the ideal pass
  rewrote nothing, so the kernel's idealization is its own text; the value claim joins the kernel's run, read at its
  result buffer, with the reference's generated run.
-/
import proofs.«104920_j78795470013089_2_alg».proof.Defs
import proofs.«104920_j78795470013089_2_alg».proof.Proof.Gen.Kernel
import proofs.«104920_j78795470013089_2_alg».proof.Proof.Gen.Kernel.Skeleton
import proofs.«104920_j78795470013089_2_alg».proof.Proof.Gen.Kernel.Launch
import proofs.«104920_j78795470013089_2_alg».proof.Proof.Gen.Kernel.Points
import proofs.«104920_j78795470013089_2_alg».proof.Proof.Gen.Kernel.Frame
import proofs.«104920_j78795470013089_2_alg».proof.Proof.Gen.KernelIdeal
import proofs.«104920_j78795470013089_2_alg».proof.Proof.Gen.KernelIdeal.Skeleton
import proofs.«104920_j78795470013089_2_alg».proof.Proof.Gen.KernelIdeal.Launch
import proofs.«104920_j78795470013089_2_alg».proof.Proof.Gen.KernelIdeal.Points
import proofs.«104920_j78795470013089_2_alg».proof.Proof.Gen.KernelIdeal.Frame
import proofs.«104920_j78795470013089_2_alg».proof.Proof.Gen.ReferenceIdeal
import proofs.«104920_j78795470013089_2_alg».proof.Proof.Gen.ReferenceIdeal.Run
import proofs.«104920_j78795470013089_2_alg».proof.Proof.Gen.ReferenceIdeal.Read
import proofs.«104920_j78795470013089_2_alg».proof.Proof.Gen.Pre_finite_inputs
import proofs.«104920_j78795470013089_2_alg».proof.Proof.KernelRun
import proofs.«104920_j78795470013089_2_alg».proof.Proof.HostWalk
import proofs.«104920_j78795470013089_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the kernel's composed term of the argument
    arrays in their result buffers: the kernel by the fold through its launches, the reference because its last stage
    is that term. -/
theorem algebraic : Cert.algebraic_KernelIdeal_ReferenceIdeal := by
  intro m ρ m' ρ' _ hagree
  refine ⟨fun c => Cert.Terms.kernelTerm
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Whole.W10_v60 m ρ c), (h c).2⟩)
      (Cert.KernelIdeal.Whole.run_result (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8⟩ := hagree c
    rw [(h c).1, Cert.ReferenceIdeal.Read.val_main_v74_eq, h0, h1, h2, h3, h4, h5, h6, h7, h8]
    exact (Cert.Bridge.kernelTerm_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
